-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v27)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v27) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v54) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4194304x16 : Shape := ⟨2, ![4194304, 16]⟩
abbrev S_ : Shape := ⟨0, ![]⟩

class Facts : Prop where
  bcast_S_S4194304x16 : S_.BroadcastsInDim S4194304x16 (![] : Fin 0 → Fin S4194304x16.rank)
  reducesTo_S4194304x16_S_d0_1 : S4194304x16.ReducesTo [0, 1] S_
  h_S_ : 0 < S_.numel

variable [Facts]

def fn {F : FTy → Type} [FloatOps F] (main_arg0 : FVec F S4194304x16 .f32) (main_arg1 : IVec S4194304x16 32) (main_arg2 : FVec F S4194304x16 .f32) : IVec S_ 1 :=
  let main_v0 : FVec F S4194304x16 .f32 := Host.absf main_arg0
  let main_cst : FVec F S_ .f32 := constant S_ .f32 0x7F800000#32
  let main_v1 : FVec F S4194304x16 .f32 := broadcastInDim S4194304x16 ![] bcast_S_S4194304x16 main_cst
  let main_v2 : IVec S4194304x16 1 := cmpf .olt main_v0 main_v1
  let main_c : IVec S_ 1 := constantI S_ 1 1#1
  let main_v3 : IVec S_ 1 := (fun x v => Host.reduce IntOp.andi x v reducesTo_S4194304x16_S_d0_1 h_S_) main_v2 main_c
  let main_v4 : FVec F S4194304x16 .f32 := Host.absf main_arg2
  let main_cst_0 : FVec F S_ .f32 := constant S_ .f32 0x7F800000#32
  let main_v5 : FVec F S4194304x16 .f32 := broadcastInDim S4194304x16 ![] bcast_S_S4194304x16 main_cst_0
  let main_v6 : IVec S4194304x16 1 := cmpf .olt main_v4 main_v5
  let main_c_1 : IVec S_ 1 := constantI S_ 1 1#1
  let main_v7 : IVec S_ 1 := (fun x v => Host.reduce IntOp.andi x v reducesTo_S4194304x16_S_d0_1 h_S_) main_v6 main_c_1
  let main_v8 : IVec S_ 1 := andi main_v3 main_v7
  main_v8
-- ==== Kernel.lean ====
abbrev S4194304x16 : Shape := ⟨2, ![4194304, 16]⟩
abbrev S524288x128 : Shape := ⟨2, ![524288, 128]⟩
abbrev S2x32x128 : Shape := ⟨3, ![2, 32, 128]⟩
abbrev S4096x128 : Shape := ⟨2, ![4096, 128]⟩
abbrev S1x32x128 : Shape := ⟨3, ![1, 32, 128]⟩
abbrev S32x128 : Shape := ⟨2, ![32, 128]⟩
abbrev S128 : Shape := ⟨1, ![128]⟩
abbrev S1x128 : Shape := ⟨2, ![1, 128]⟩
abbrev S_ : Shape := ⟨0, ![]⟩
abbrev S10x128 : Shape := ⟨2, ![10, 128]⟩
abbrev S10 : Shape := ⟨1, ![10]⟩

abbrev nBuf : Space → Nat
  | .hbm => 42
  | .vmem => 8
  | .smem => 0
  | _ => 0

abbrev bufTy : (tb : Table) → Fin (tcTables nBuf tb) → BufTy
  | .hbm, ⟨0, _⟩ => ⟨S4194304x16, .f32⟩
  | .hbm, ⟨1, _⟩ => ⟨S4194304x16, .i32⟩
  | .hbm, ⟨2, _⟩ => ⟨S4194304x16, .f32⟩
  | .hbm, ⟨3, _⟩ => ⟨S524288x128, .f32⟩
  | .hbm, ⟨4, _⟩ => ⟨S524288x128, .i32⟩
  | .hbm, ⟨5, _⟩ => ⟨S524288x128, .f32⟩
  | .hbm, ⟨6, _⟩ => ⟨S2x32x128, .f32⟩
  | .hbm, ⟨7, _⟩ => ⟨S_, .f32⟩
  | .hbm, ⟨8, _⟩ => ⟨S32x128, .f32⟩
  | .hbm, ⟨9, _⟩ => ⟨S10x128, .f32⟩
  | .hbm, ⟨10, _⟩ => ⟨S_, .f32⟩
  | .hbm, ⟨11, _⟩ => ⟨S10, .f32⟩
  | .hbm, ⟨12, _⟩ => ⟨S1x128, .f32⟩
  | .hbm, ⟨13, _⟩ => ⟨S128, .f32⟩
  | .hbm, ⟨14, _⟩ => ⟨S_, .f32⟩
  | .hbm, ⟨15, _⟩ => ⟨S_, .f32⟩
  | .hbm, ⟨16, _⟩ => ⟨S10x128, .f32⟩
  | .hbm, ⟨17, _⟩ => ⟨S_, .f32⟩
  | .hbm, ⟨18, _⟩ => ⟨S10, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S10, .f32⟩
  | .hbm, ⟨23, _⟩ => ⟨S10, .i1⟩
  | .hbm, ⟨24, _⟩ => ⟨S10, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S10, .f32⟩
  | .hbm, ⟨31, _⟩ => ⟨S10, .f32⟩
  | .hbm, ⟨32, _⟩ => ⟨S10, .f32⟩
  | .hbm, ⟨33, _⟩ => ⟨S10, .f32⟩
  | .hbm, ⟨34, _⟩ => ⟨S10, .f32⟩
  | .hbm, ⟨35, _⟩ => ⟨S10, .f32⟩
  | .hbm, ⟨36, _⟩ => ⟨S10, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .local _ .vmem, ⟨0, _⟩ => ⟨S4096x128, .f32⟩
  | .local _ .vmem, ⟨1, _⟩ => ⟨S4096x128, .f32⟩
  | .local _ .vmem, ⟨2, _⟩ => ⟨S4096x128, .i32⟩
  | .local _ .vmem, ⟨3, _⟩ => ⟨S4096x128, .i32⟩
  | .local _ .vmem, ⟨4, _⟩ => ⟨S4096x128, .f32⟩
  | .local _ .vmem, ⟨5, _⟩ => ⟨S4096x128, .f32⟩
  | .local _ .vmem, ⟨6, _⟩ => ⟨S1x32x128, .f32⟩
  | .local _ .vmem, ⟨7, _⟩ => ⟨S1x32x128, .f32⟩
  | _, _ => ⟨S4194304x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_v10 : Ref sig .tc := ⟨.hbm, 16, rfl⟩
abbrev main_cst_2 : Ref sig .tc := ⟨.hbm, 17, rfl⟩
abbrev main_v11 : Ref sig .tc := ⟨.hbm, 18, rfl⟩
abbrev main_cst_3 : Ref sig .tc := ⟨.hbm, 19, rfl⟩
abbrev main_v12 : Ref sig .tc := ⟨.hbm, 20, rfl⟩
abbrev main_cst_4 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_5 : Ref sig .tc := ⟨.hbm, 25, rfl⟩
abbrev main_v16 : Ref sig .tc := ⟨.hbm, 26, rfl⟩
abbrev main_cst_6 : Ref sig .tc := ⟨.hbm, 27, rfl⟩
abbrev main_v17 : Ref sig .tc := ⟨.hbm, 28, rfl⟩
abbrev main_cst_7 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_8 : Ref sig .tc := ⟨.hbm, 37, rfl⟩
abbrev main_v25 : Ref sig .tc := ⟨.hbm, 38, rfl⟩
abbrev main_v26 : Ref sig .tc := ⟨.hbm, 39, rfl⟩
abbrev main_cst_9 : Ref sig .tc := ⟨.hbm, 40, rfl⟩
abbrev main_v27 : Ref sig .tc := ⟨.hbm, 41, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 64], ![false, false]⟩

def cc0_transform_0 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4096x128 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S4096x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x32x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  shapeCasts_S4194304x16_S524288x128 : S4194304x16.ShapeCasts S524288x128
  inb_S1x32x128_S1x32x128_0_0_0 : ∀ a, (![0, 0, 0] : Fin 3 → Nat) a + S1x32x128.size a ≤ S1x32x128.size a
  h_S1x32x128 : 0 < S1x32x128.numel
  shapeCasts_S1x32x128_S32x128 : S1x32x128.ShapeCasts S32x128
  shapeCasts_S32x128_S1x32x128 : S32x128.ShapeCasts S1x32x128
  inb_S4096x128_S4096x128_0_0 : ∀ a, (![0, 0] : Fin 2 → Nat) a + S4096x128.size a ≤ S4096x128.size a
  h_S4096x128 : 0 < S4096x128.numel
  shapeCasts_S4096x128_S4096x128 : S4096x128.ShapeCasts S4096x128
  natLt_1_32 : 1 < 32
  iota_S32x128_d0_w32 : S32x128.Iotas .tc 32 [0]
  reduces_S4096x128_S128 : S4096x128.Reduces [0] S128
  shapeCasts_S128_S1x128 : S128.ShapeCasts S1x128
  shapeCasts_S1x128_S1x128 : S1x128.ShapeCasts S1x128
  broadcasts_S1x128_S32x128 : S1x128.Broadcasts S32x128
  reducesTo_S2x32x128_S32x128_d0 : S2x32x128.ReducesTo [0] S32x128
  h_S_ : 0 < S_.numel
  slices_S32x128_S10x128_0_0 : S32x128.Slices ![0, 0] S10x128
  reducesTo_S10x128_S10_d1 : S10x128.ReducesTo [1] S10
  slices_S32x128_S1x128_10_0 : S32x128.Slices ![10, 0] S1x128
  shapeCasts_S1x128_S128 : S1x128.ShapeCasts S128
  reducesTo_S128_S_d0 : S128.ReducesTo [0] S_
  slices_S32x128_S10x128_16_0 : S32x128.Slices ![16, 0] S10x128
  bcast_S_S10 : S_.BroadcastsInDim S10 (![] : Fin 0 → Fin S10.rank)
  reducesTo_S10_S_d0 : S10.ReducesTo [0] S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x128.size a ≤ S524288x128.size a
  hwx0_0 : ∀ i : grid0.Coords, EltTy.bits .f32 = 32 ∨ (Rect.block (s := S524288x128) S4096x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x128.size a ≤ S524288x128.size a
  hwx0_1 : ∀ i : grid0.Coords, EltTy.bits .i32 = 32 ∨ (Rect.block (s := S524288x128) S4096x128.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4096x128.size a ≤ S524288x128.size a
  hwx0_2 : ∀ i : grid0.Coords, EltTy.bits .f32 = 32 ∨ (Rect.block (s := S524288x128) S4096x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x32x128.size a ≤ S2x32x128.size a
  hwx0_3 : ∀ i : grid0.Coords, EltTy.bits .f32 = 32 ∨ (Rect.block (s := S2x32x128) S1x32x128.size (cc0_transform_3 i) (hinb0_3 i)).WholeWords (EltTy.packing .f32)

variable [Facts₀]

abbrev win0_0 : Pipeline.Window sig grid0 :=
  Pipeline.Window.ofSpec (Memref.whole main_v0) S4096x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S4096x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S4096x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1x32x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4194304x16 : Shape := ⟨2, ![4194304, 16]⟩
abbrev S_ : Shape := ⟨0, ![]⟩
abbrev S67108864 : Shape := ⟨1, ![67108864]⟩
abbrev S10 : Shape := ⟨1, ![10]⟩
abbrev S67108864x1 : Shape := ⟨2, ![67108864, 1]⟩
abbrev S4194304x16x1 : Shape := ⟨3, ![4194304, 16, 1]⟩

abbrev nBuf : Space → Nat
  | .hbm => 84
  | .vmem => 0
  | .smem => 0
  | _ => 0

abbrev bufTy : (tb : Table) → Fin (tcTables nBuf tb) → BufTy
  | .hbm, ⟨0, _⟩ => ⟨S4194304x16, .f32⟩
  | .hbm, ⟨1, _⟩ => ⟨S4194304x16, .i32⟩
  | .hbm, ⟨2, _⟩ => ⟨S4194304x16, .f32⟩
  | .hbm, ⟨3, _⟩ => ⟨S4194304x16, .f32⟩
  | .hbm, ⟨4, _⟩ => ⟨S_, .f32⟩
  | .hbm, ⟨5, _⟩ => ⟨S4194304x16, .f32⟩
  | .hbm, ⟨6, _⟩ => ⟨S4194304x16, .i1⟩
  | .hbm, ⟨7, _⟩ => ⟨S4194304x16, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S4194304x16, .f32⟩
  | .hbm, ⟨13, _⟩ => ⟨S4194304x16, .f32⟩
  | .hbm, ⟨14, _⟩ => ⟨S_, .f32⟩
  | .hbm, ⟨15, _⟩ => ⟨S4194304x16, .f32⟩
  | .hbm, ⟨16, _⟩ => ⟨S4194304x16, .f32⟩
  | .hbm, ⟨17, _⟩ => ⟨S_, .f32⟩
  | .hbm, ⟨18, _⟩ => ⟨S4194304x16, .f32⟩
  | .hbm, ⟨19, _⟩ => ⟨S4194304x16, .f32⟩
  | .hbm, ⟨20, _⟩ => ⟨S4194304x16, .f32⟩
  | .hbm, ⟨21, _⟩ => ⟨S4194304x16, .f32⟩
  | .hbm, ⟨22, _⟩ => ⟨S_, .f32⟩
  | .hbm, ⟨23, _⟩ => ⟨S4194304x16, .f32⟩
  | .hbm, ⟨24, _⟩ => ⟨S4194304x16, .f32⟩
  | .hbm, ⟨25, _⟩ => ⟨S4194304x16, .i32⟩
  | .hbm, ⟨26, _⟩ => ⟨S_, .i32⟩
  | .hbm, ⟨27, _⟩ => ⟨S_, .i32⟩
  | .hbm, ⟨28, _⟩ => ⟨S_, .i32⟩
  | .hbm, ⟨29, _⟩ => ⟨S4194304x16, .i32⟩
  | .hbm, ⟨30, _⟩ => ⟨S4194304x16, .i32⟩
  | .hbm, ⟨31, _⟩ => ⟨S_, .i32⟩
  | .hbm, ⟨32, _⟩ => ⟨S4194304x16, .i32⟩
  | .hbm, ⟨33, _⟩ => ⟨S4194304x16, .i32⟩
  | .hbm, ⟨34, _⟩ => ⟨S67108864, .f32⟩
  | .hbm, ⟨35, _⟩ => ⟨S67108864, .i32⟩
  | .hbm, ⟨36, _⟩ => ⟨S_, .f32⟩
  | .hbm, ⟨37, _⟩ => ⟨S10, .f32⟩
  | .hbm, ⟨38, _⟩ => ⟨S67108864x1, .i32⟩
  | .hbm, ⟨39, _⟩ => ⟨S10, .f32⟩
  | .hbm, ⟨40, _⟩ => ⟨S_, .f32⟩
  | .hbm, ⟨41, _⟩ => ⟨S10, .f32⟩
  | .hbm, ⟨42, _⟩ => ⟨S10, .i1⟩
  | .hbm, ⟨43, _⟩ => ⟨S10, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S10, .f32⟩
  | .hbm, ⟨50, _⟩ => ⟨S10, .f32⟩
  | .hbm, ⟨51, _⟩ => ⟨S10, .f32⟩
  | .hbm, ⟨52, _⟩ => ⟨S10, .f32⟩
  | .hbm, ⟨53, _⟩ => ⟨S_, .i32⟩
  | .hbm, ⟨54, _⟩ => ⟨S4194304x16, .i32⟩
  | .hbm, ⟨55, _⟩ => ⟨S4194304x16, .i1⟩
  | .hbm, ⟨56, _⟩ => ⟨S_, .i32⟩
  | .hbm, ⟨57, _⟩ => ⟨S4194304x16, .i32⟩
  | .hbm, ⟨58, _⟩ => ⟨S4194304x16, .i32⟩
  | .hbm, ⟨59, _⟩ => ⟨S4194304x16, .i32⟩
  | .hbm, ⟨60, _⟩ => ⟨S4194304x16x1, .i32⟩
  | .hbm, ⟨61, _⟩ => ⟨S4194304x16, .f32⟩
  | .hbm, ⟨62, _⟩ => ⟨S_, .f32⟩
  | .hbm, ⟨63, _⟩ => ⟨S_, .f32⟩
  | .hbm, ⟨64, _⟩ => ⟨S4194304x16, .f32⟩
  | .hbm, ⟨65, _⟩ => ⟨S4194304x16, .f32⟩
  | .hbm, ⟨66, _⟩ => ⟨S4194304x16, .f32⟩
  | .hbm, ⟨67, _⟩ => ⟨S4194304x16, .f32⟩
  | .hbm, ⟨68, _⟩ => ⟨S_, .f32⟩
  | .hbm, ⟨69, _⟩ => ⟨S4194304x16, .f32⟩
  | .hbm, ⟨70, _⟩ => ⟨S4194304x16, .f32⟩
  | .hbm, ⟨71, _⟩ => ⟨S4194304x16, .f32⟩
  | .hbm, ⟨72, _⟩ => ⟨S4194304x16, .f32⟩
  | .hbm, ⟨73, _⟩ => ⟨S4194304x16, .f32⟩
  | .hbm, ⟨74, _⟩ => ⟨S4194304x16, .f32⟩
  | .hbm, ⟨75, _⟩ => ⟨S4194304x16, .f32⟩
  | .hbm, ⟨76, _⟩ => ⟨S4194304x16, .f32⟩
  | .hbm, ⟨77, _⟩ => ⟨S4194304x16, .f32⟩
  | .hbm, ⟨78, _⟩ => ⟨S4194304x16, .f32⟩
  | .hbm, ⟨79, _⟩ => ⟨S_, .f32⟩
  | .hbm, ⟨80, _⟩ => ⟨S_, .f32⟩
  | .hbm, ⟨81, _⟩ => ⟨S_, .f32⟩
  | .hbm, ⟨82, _⟩ => ⟨S_, .f32⟩
  | .hbm, ⟨83, _⟩ => ⟨S_, .f32⟩
  | _, _ => ⟨S4194304x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_2 : Ref sig .tc := ⟨.hbm, 14, rfl⟩
abbrev main_v8 : Ref sig .tc := ⟨.hbm, 15, rfl⟩
abbrev main_v9 : Ref sig .tc := ⟨.hbm, 16, rfl⟩
abbrev main_cst_3 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_4 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_c : Ref sig .tc := ⟨.hbm, 26, rfl⟩
abbrev main_c_5 : Ref sig .tc := ⟨.hbm, 27, rfl⟩
abbrev main_call0_v0 : Ref sig .tc := ⟨.hbm, 28, rfl⟩
abbrev main_call0_v1 : Ref sig .tc := ⟨.hbm, 29, rfl⟩
abbrev main_call0_v2 : Ref sig .tc := ⟨.hbm, 30, rfl⟩
abbrev main_call0_v3 : Ref sig .tc := ⟨.hbm, 31, rfl⟩
abbrev main_call0_v4 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_cst_6 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_cst_7 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_cst_8 : Ref sig .tc := ⟨.hbm, 44, rfl⟩
abbrev main_v26 : Ref sig .tc := ⟨.hbm, 45, rfl⟩
abbrev main_cst_9 : Ref sig .tc := ⟨.hbm, 46, rfl⟩
abbrev main_v27 : Ref sig .tc := ⟨.hbm, 47, rfl⟩
abbrev main_cst_10 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_c_11 : Ref sig .tc := ⟨.hbm, 53, rfl⟩
abbrev main_v32 : Ref sig .tc := ⟨.hbm, 54, rfl⟩
abbrev main_v33 : Ref sig .tc := ⟨.hbm, 55, rfl⟩
abbrev main_c_12 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_cst_13 : Ref sig .tc := ⟨.hbm, 62, rfl⟩
abbrev main_call1_v0 : Ref sig .tc := ⟨.hbm, 63, rfl⟩
abbrev main_call1_v1 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_cst_14 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_cst_15 : Ref sig .tc := ⟨.hbm, 79, rfl⟩
abbrev main_v52 : Ref sig .tc := ⟨.hbm, 80, rfl⟩
abbrev main_v53 : Ref sig .tc := ⟨.hbm, 81, rfl⟩
abbrev main_cst_16 : Ref sig .tc := ⟨.hbm, 82, rfl⟩
abbrev main_v54 : Ref sig .tc := ⟨.hbm, 83, rfl⟩

abbrev nD : Nat := 1
abbrev τ : Topo := Topo.v7x

variable {F : FTy → Type} [FloatOps F]

class Facts₀ : Prop where
  bcast_S_S4194304x16 : S_.BroadcastsInDim S4194304x16 (![] : Fin 0 → Fin S4194304x16.rank)
  reducesTo_S4194304x16_S_d0_1 : S4194304x16.ReducesTo [0, 1] S_
  h_S_ : 0 < S_.numel
  shapeCasts_S4194304x16_S67108864 : S4194304x16.ShapeCasts S67108864
  bcast_S_S10 : S_.BroadcastsInDim S10 (![] : Fin 0 → Fin S10.rank)
  bcast_S67108864_S67108864x1_0 : S67108864.BroadcastsInDim S67108864x1 (![0] : Fin 1 → Fin S67108864x1.rank)
  reducesTo_S10_S_d0 : S10.ReducesTo [0] S_
  bcast_S4194304x16_S4194304x16x1_0_1 : S4194304x16.BroadcastsInDim S4194304x16x1 (![0, 1] : Fin 2 → Fin S4194304x16x1.rank)
  scatter_S10_S67108864x1_S67108864_n_0_0_1_wf : ScatterDims.WF S10 S67108864x1 S67108864 [] [0] [0] 1
  gather_S10_S4194304x16x1_S4194304x16_n_0_n_n_0_2_1_wf : GatherDims.WF S10 S4194304x16x1 S4194304x16 [] [0] [] [0] [] 2 ![1]

variable [Facts₀]

def scatter_S10_S67108864x1_S67108864_n_0_0_1 : ScatterDims S10 S67108864x1 S67108864 where
  updateWindowDims := []
  insertedWindowDims := [0]
  scatterDimsToOperandDims := [0]
  indexVectorDim := 1
  wf := scatter_S10_S67108864x1_S67108864_n_0_0_1_wf
def gather_S10_S4194304x16x1_S4194304x16_n_0_n_n_0_2_1 : GatherDims S10 S4194304x16x1 S4194304x16 where
  offsetDims := []
  collapsedSliceDims := [0]
  operandBatchingDims := []
  startIndicesBatchingDims := []
  startIndexMap := [0]
  indexVectorDim := 2
  sliceSizes := ![1]
  wf := gather_S10_S4194304x16x1_S4194304x16_n_0_n_n_0_2_1_wf

class Facts : Prop extends Facts₀ where

variable [Facts]
-- ==== Proof.GhmSpec.lean ====
/-
  The gradient-harmonized classification loss, as two closed forms over one finite family of elements.

  Every element `e` carries a validity bit `vb e` (is its label weight positive), a bin word `k e` (the gradient
  norm |sigmoid(pred) - target| cut into ten bins, a 32-bit integer between 0 and 9) and a cross-entropy term `β e`.
  With `cnt b` the number of valid elements of bin `b`, `T = max (number of valid elements) 1`, `n = max (number of
  non-empty bins) 1` and the bin weight `w b = T / max (cnt b) 1`, the loss is

      (∑ over the elements e of (w (bin of e) / n, or 0 where e is not valid) · β e) / T          (`rLoss`)

  and, with the sum over the elements regrouped bin by bin,

      (∑ over the bins b of (w b / n) · S b) / T,   S b = ∑ over the elements e of (valid e · [bin of e = b]) · β e   (`kLoss`).

  This module only states the two forms (over the extended reals, with the operations of the exact reading of floats)
  and the two row-major index maps through which the elements are enumerated; it proves nothing but index bounds.
-/
import Idealize.ShloMosaic.PureOps.Ideal.Laws
import Idealize.ShloMosaic.Lib.ValueIdx

noncomputable section

open scoped BigOperators

namespace Cert.Ghm

open Idealize.ShloMosaic Idealize.ShloMosaic.ValueIdx

/-- The element index set: 4194304 rows of 16 entries. -/
abbrev SE : Shape := ⟨2, ![4194304, 16]⟩

/-! ## One element -/

/-- A one-bit test read as a number: 0 or 1. -/
def vOf (x : BitVec 1) : EReal := ((x.toNat : ℝ) : EReal)

/-- "the bin word is `b`", as the number 0 or 1 formed by comparing, widening to 32 bits and converting. -/
def mOf (k : BitVec 32) (b : Fin 10) : EReal :=
  ((((IntOp.cmpi .eq k (BitVec.ofNat 32 b.val)).setWidth 32).toInt : ℝ) : EReal)

/-- A possibly negative index wrapped once: `k + 10` below zero, else `k`. -/
def wrap10 (k : BitVec 32) : BitVec 32 := Scalar.select (IntOp.cmpi .slt k 0#32) (IntOp.addi k 10#32) k

/-- The entry of a ten-entry table a start index selects: read signed, clamped into 0..9. -/
def clamp10 (k : BitVec 32) : Fin 10 := ⟨min k.toInt.toNat 9, by omega⟩

/-! ## The two closed forms, over any finite family of elements -/

section Forms
variable {ι : Type*} [Fintype ι] (vb : ι → BitVec 1) (k : ι → BitVec 32) (β : ι → EReal)

/-- The number of valid elements. -/
def totOf : EReal := ∑ e, vOf (vb e)

/-- `T`: that number, at least 1. -/
def capT : EReal := max (totOf vb) 1

/-- Valid elements of bin `b`, counted through the 0/1 masks. -/
def cntK (b : Fin 10) : EReal := ∑ e, vOf (vb e) * mOf (k e) b

/-- Valid elements of bin `b`, counted by adding the validity numbers of the elements whose bin word is `b`. -/
def cntR (b : Fin 10) : EReal := ∑ e ∈ Finset.univ.filter (fun e => (k e).toInt = (b.val : ℤ)), vOf (vb e)

/-- The cross-entropy mass of the valid elements of bin `b`. -/
def sK (b : Fin 10) : EReal := ∑ e, (vOf (vb e) * mOf (k e) b) * β e

/-- `n`: the number of non-empty bins, at least 1. -/
def nOf (cnt : Fin 10 → EReal) : EReal := max (∑ b : Fin 10, vOf (Ideal.cmp .ogt (cnt b) 0)) 1

/-- The loss with the sum regrouped bin by bin. -/
def kLoss : EReal :=
  Ideal.div (∑ b : Fin 10, Ideal.div (Ideal.div (capT vb) (max (cntK vb k b) 1)) (nOf (cntK vb k)) * sK vb k β b) (capT vb)

/-- The weight an element gets: its bin's weight where it is valid, else 0. -/
def selR (e : ι) : EReal :=
  Scalar.select (vb e) (Ideal.div (capT vb) (max (cntR vb k (clamp10 (wrap10 (k e)))) 1)) 0

/-- The loss as one sum over the elements. -/
def rLoss : EReal :=
  Ideal.div (∑ e, Ideal.div (selR vb k e) (nOf (cntR vb k)) * β e) (capT vb)

end Forms

/-! ## Enumerating the elements -/

/-- Element `(r, l)` of block `64 c + i` of the [524288, 128] row-major view of the [4194304, 16] array: the view's row is
    `(64 c + i) · 4096 + r`, its flat position that row times 128 plus `l`, and the array's row and column are the
    quotient and remainder of the flat position by 16. -/
def elt (c : Fin 2) (i : Fin 64) (r : Fin 4096) (l : Fin 128) : SE.Idx :=
  ix2 (⟨(((c.val * 64 + i.val) * 4096 + r.val) * 128 + l.val) / 16, by
        have := c.isLt; have := i.isLt; have := r.isLt; have := l.isLt; omega⟩ : Fin 4194304)
      (⟨(((c.val * 64 + i.val) * 4096 + r.val) * 128 + l.val) % 16, Nat.mod_lt _ (by decide)⟩ : Fin 16)

/-- Entry `u` of the flat [67108864] view of the [4194304, 16] array. -/
def flat (u : Fin 67108864) : SE.Idx :=
  ix2 (⟨u.val / 16, by have := u.isLt; omega⟩ : Fin 4194304) (⟨u.val % 16, Nat.mod_lt _ (by decide)⟩ : Fin 16)

end Cert.Ghm

end
-- ==== Proof.GhmElem.lean ====
/-
  One element of the gradient-harmonized loss, at the exact values: from its prediction `p` (an extended real), its
  integer target `t` and its label weight `l`,

    * the validity bit `vbit l`: is the label weight positive;
    * the bin word `gbin p t`: the gradient norm |sigmoid p - t|, times ten, cut to an integer toward zero and
      clipped into 0..9;
    * the cross-entropy term `bce p t = max p 0 - p·t + log (1 + exp (-|p|))`.
-/
import proofs.«167816_j4818953306441_2_alg».proof.Proof.GhmSpec

noncomputable section

namespace Cert.Ghm

open Idealize.ShloMosaic

/-- An integer word read signed, as a number. -/
def tF (t : BitVec 32) : EReal := ((t.toInt : ℝ) : EReal)

/-- Is the label weight positive? -/
def vbit (l : EReal) : BitVec 1 := Ideal.cmp .ogt l 0

/-- The bin word: |sigmoid p - t| · 10, toward zero, clipped into 0..9. -/
def gbin (p : EReal) (t : BitVec 32) : BitVec 32 :=
  IntOp.minsi 9#32 (IntOp.maxsi 0#32
    (Ideal.fptosi 32 (max (Ideal.logistic p - tF t) (-(Ideal.logistic p - tF t)) * Ideal.ofBits .f32 0x41200000#32)))

/-- The numerically stable binary cross-entropy with logits. -/
def bce (p : EReal) (t : BitVec 32) : EReal :=
  (max p 0 - p * tF t) + Ideal.log1p (Ideal.exp (-(max p (-p))))

/-- The pattern of 1.0. -/
theorem ofBits_one_f32 : Ideal.ofBits .f32 0x3F800000#32 = 1 := by
  simp [Ideal.ofBits, Ideal.ieee, -EReal.coe_mul]; norm_num

end Cert.Ghm

end
-- ==== Proof.GhmIndex.lean ====
/-
  The two enumerations of the element index set are bijections, so a sum over either is the sum over the elements.

  The element index set is the 4194304 × 16 array's: a pair (a, b) with a < 4194304 and b < 16, whose row-major
  position is 16 a + b, a number below 67108864 = 4194304 · 16.

  * The flat enumeration sends u < 67108864 to (u / 16, u % 16); its inverse is (a, b) ↦ 16 a + b.
  * The blocked enumeration sends (c, i, r, l), c < 2, i < 64, r < 4096, l < 128, to the pair of the position
    p = ((64 c + i) · 4096 + r) · 128 + l. The map (c, i, r, l) ↦ p is the mixed-radix numbering of
    2 · 64 · 4096 · 128 = 67108864 positions, with inverse l = p % 128, r = p / 128 % 4096, i = p / 524288 % 64,
    c = p / 33554432.

  Each is stated as an equivalence whose two inverse laws are linear arithmetic with division and remainder by
  literals; the sums are then re-indexed through the equivalences, and the sum over a product of ranges is written
  as the nested sums.
-/
import proofs.«167816_j4818953306441_2_alg».proof.Proof.GhmSpec

noncomputable section

open scoped BigOperators

namespace Cert.Ghm

open Idealize.ShloMosaic Idealize.ShloMosaic.ValueIdx

/-! ## Coordinates -/

/-- Two element indices with the same two coordinates are equal. -/
theorem idx_ext (j j' : SE.Idx) (h0 : (j 0).val = (j' 0).val) (h1 : (j 1).val = (j' 1).val) : j = j' := by
  funext d
  match d with
  | ⟨0, _⟩ => exact Fin.ext h0
  | ⟨1, _⟩ => exact Fin.ext h1

/-- The first coordinate of an element index is a row number. -/
theorem idx_lt0 (j : SE.Idx) : (j 0).val < 4194304 := idx2_lt0 j
/-- The second coordinate of an element index is a column number. -/
theorem idx_lt1 (j : SE.Idx) : (j 1).val < 16 := idx2_lt1 j

/-- The row of flat entry u is u / 16 … -/
theorem flat_val0 (u : Fin 67108864) : ((flat u) 0).val = u.val / 16 := rfl
/-- … and its column u % 16. -/
theorem flat_val1 (u : Fin 67108864) : ((flat u) 1).val = u.val % 16 := rfl

/-- The row of a blocked element is its position divided by 16 … -/
theorem elt_val0 (c : Fin 2) (i : Fin 64) (r : Fin 4096) (l : Fin 128) :
    ((elt c i r l) 0).val = (((c.val * 64 + i.val) * 4096 + r.val) * 128 + l.val) / 16 := rfl
/-- … and its column the remainder. -/
theorem elt_val1 (c : Fin 2) (i : Fin 64) (r : Fin 4096) (l : Fin 128) :
    ((elt c i r l) 1).val = (((c.val * 64 + i.val) * 4096 + r.val) * 128 + l.val) % 16 := rfl

/-! ## The arithmetic, over plain naturals -/

/-- The position 16 a + b of a pair is below 67108864. -/
theorem pos_lt (a b : Nat) (ha : a < 4194304) (hb : b < 16) : a * 16 + b < 67108864 := by omega

/-- Quotient and remainder by 16 undo the position. -/
theorem pos_div (a b : Nat) (hb : b < 16) : (a * 16 + b) / 16 = a := by omega
theorem pos_mod (a b : Nat) (hb : b < 16) : (a * 16 + b) % 16 = b := by omega
/-- The position of the quotient and remainder by 16 is the number. -/
theorem div_mod_pos (u : Nat) : u / 16 * 16 + u % 16 = u := by omega

/-- The mixed-radix digits of a position recompose to it. -/
theorem digits_pos (p : Nat) (hp : p < 67108864) :
    ((p / 33554432 * 64 + p / 524288 % 64) * 4096 + p / 128 % 4096) * 128 + p % 128 = p := by omega

/-- The four digits of the position of (c, i, r, l) are c, i, r, l. -/
theorem pos_digit_l (c i r l : Nat) (hl : l < 128) :
    (((c * 64 + i) * 4096 + r) * 128 + l) % 128 = l := by omega
theorem pos_digit_r (c i r l : Nat) (hr : r < 4096) (hl : l < 128) :
    (((c * 64 + i) * 4096 + r) * 128 + l) / 128 % 4096 = r := by omega
theorem pos_digit_i (c i r l : Nat) (hi : i < 64) (hr : r < 4096) (hl : l < 128) :
    (((c * 64 + i) * 4096 + r) * 128 + l) / 524288 % 64 = i := by omega
theorem pos_digit_c (c i r l : Nat) (hi : i < 64) (hr : r < 4096) (hl : l < 128) :
    (((c * 64 + i) * 4096 + r) * 128 + l) / 33554432 = c := by omega

/-! ## The flat enumeration -/

/-- The flat enumeration as an equivalence: u ↦ (u / 16, u % 16), with inverse (a, b) ↦ 16 a + b. -/
def flatEquiv : Fin 67108864 ≃ SE.Idx where
  toFun := flat
  invFun j := ⟨(j 0).val * 16 + (j 1).val, pos_lt _ _ (idx_lt0 j) (idx_lt1 j)⟩
  left_inv u := by
    refine Fin.ext ?_
    show ((flat u) 0).val * 16 + ((flat u) 1).val = u.val
    rw [flat_val0, flat_val1]
    exact div_mod_pos u.val
  right_inv j := by
    refine idx_ext _ _ ?_ ?_
    · rw [flat_val0]
      exact pos_div _ _ (idx_lt1 j)
    · rw [flat_val1]
      exact pos_mod _ _ (idx_lt1 j)

theorem flatEquiv_apply (u : Fin 67108864) : flatEquiv u = flat u := rfl

/-- A sum over the flat enumeration is the sum over the elements. -/
theorem sum_flat {M : Type*} [AddCommMonoid M] (g : SE.Idx → M) :
    ∑ u : Fin 67108864, g (flat u) = ∑ e, g e :=
  Equiv.sum_comp flatEquiv g

/-- The same for the elements satisfying a predicate: a filtered sum is the sum of the function set to zero outside
    the predicate. -/
theorem sum_flat_filter {M : Type*} [AddCommMonoid M] (P : SE.Idx → Prop) [DecidablePred P] (g : SE.Idx → M) :
    ∑ u ∈ Finset.univ.filter (fun u => P (flat u)), g (flat u) = ∑ e ∈ Finset.univ.filter P, g e := by
  rw [Finset.sum_filter, Finset.sum_filter]
  exact sum_flat (fun e => if P e then g e else 0)

/-! ## The blocked enumeration -/

/-- The position of an element index. -/
def posOf (j : SE.Idx) : Nat := (j 0).val * 16 + (j 1).val

theorem posOf_lt (j : SE.Idx) : posOf j < 67108864 := pos_lt _ _ (idx_lt0 j) (idx_lt1 j)

/-- The position of a blocked element is ((64 c + i) · 4096 + r) · 128 + l. -/
theorem posOf_elt (c : Fin 2) (i : Fin 64) (r : Fin 4096) (l : Fin 128) :
    posOf (elt c i r l) = ((c.val * 64 + i.val) * 4096 + r.val) * 128 + l.val := by
  unfold posOf
  rw [elt_val0, elt_val1]
  exact div_mod_pos _

/-- The blocked enumeration as an equivalence, the lane l written first: (l, c, i, r) ↦ the element of position
    ((64 c + i) · 4096 + r) · 128 + l, with inverse the mixed-radix digits of the position. -/
def eltEquiv : Fin 128 × Fin 2 × Fin 64 × Fin 4096 ≃ SE.Idx where
  toFun q := elt q.2.1 q.2.2.1 q.2.2.2 q.1
  invFun j :=
    (⟨posOf j % 128, Nat.mod_lt _ (by omega)⟩,
     ⟨posOf j / 33554432, by have := posOf_lt j; omega⟩,
     ⟨posOf j / 524288 % 64, Nat.mod_lt _ (by omega)⟩,
     ⟨posOf j / 128 % 4096, Nat.mod_lt _ (by omega)⟩)
  left_inv q := by
    obtain ⟨l, c, i, r⟩ := q
    have hi := i.isLt
    have hr := r.isLt
    have hl := l.isLt
    refine Prod.ext (Fin.ext ?_) (Prod.ext (Fin.ext ?_) (Prod.ext (Fin.ext ?_) (Fin.ext ?_)))
    · show posOf (elt c i r l) % 128 = l.val
      rw [posOf_elt]; exact pos_digit_l _ _ _ _ hl
    · show posOf (elt c i r l) / 33554432 = c.val
      rw [posOf_elt]; exact pos_digit_c _ _ _ _ hi hr hl
    · show posOf (elt c i r l) / 524288 % 64 = i.val
      rw [posOf_elt]; exact pos_digit_i _ _ _ _ hi hr hl
    · show posOf (elt c i r l) / 128 % 4096 = r.val
      rw [posOf_elt]; exact pos_digit_r _ _ _ _ hr hl
  right_inv j := by
    have hp := digits_pos (posOf j) (posOf_lt j)
    refine idx_ext _ _ ?_ ?_
    · rw [elt_val0]
      show (((posOf j / 33554432 * 64 + posOf j / 524288 % 64) * 4096 + posOf j / 128 % 4096) * 128
        + posOf j % 128) / 16 = (j 0).val
      rw [hp]
      exact pos_div _ _ (idx_lt1 j)
    · rw [elt_val1]
      show (((posOf j / 33554432 * 64 + posOf j / 524288 % 64) * 4096 + posOf j / 128 % 4096) * 128
        + posOf j % 128) % 16 = (j 1).val
      rw [hp]
      exact pos_mod _ _ (idx_lt1 j)

theorem eltEquiv_apply (l : Fin 128) (c : Fin 2) (i : Fin 64) (r : Fin 4096) :
    eltEquiv (l, c, i, r) = elt c i r l := rfl

/-- A sum over the blocked enumeration, the lane outermost, is the sum over the elements. -/
theorem sum_elt {M : Type*} [AddCommMonoid M] (g : SE.Idx → M) :
    ∑ l : Fin 128, ∑ c : Fin 2, ∑ i : Fin 64, ∑ r : Fin 4096, g (elt c i r l) = ∑ e, g e := by
  rw [← Equiv.sum_comp eltEquiv g]
  simp only [Fintype.sum_prod_type, eltEquiv_apply]

end Cert.Ghm

end
-- ==== Proof.LibRowScatter.lean ====
/-
  Rows accumulated through an integer index column.

  An accumulating scatter whose scatter indices form a column `[E, 1]` and whose update windows are whole rows sends
  update row `e` to the operand row whose number is `idx (e, 0)` read as a signed integer, NOT clamped, and drops the
  row when that number is negative or at least `N`. Over the extended reals the result at `(v, c)` is therefore the
  operand there plus the sum of the updates `(e, c)` over the edges `e` whose integer is exactly `v`. The same holds
  for a flat operand `[N]` with flat updates `[E]`. Stated for any extents `N`, `E`, `C`.
-/
import Idealize.ShloMosaic.Lib.ValueIdx
import Idealize.ShloMosaic.PureOps.Ideal.Laws

open scoped BigOperators

noncomputable section

namespace Cert.RowIndex

open Idealize.ShloMosaic Idealize.ShloMosaic.ValueIdx

/-! ## Rows of an `[N, C]` operand -/

/-- The dimension numbers of "update row `e` goes to operand row `idx (e, 0)`". -/
abbrev rowScatter (N E C : Nat) (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

section Rows
variable {N E C w : Nat} (wf : ScatterDims.WF ⟨2, ![N, C]⟩ ⟨2, ![E, 1]⟩ ⟨2, ![E, C]⟩ [1] [0] [0] 1)
  (idx : IVec ⟨2, ![E, 1]⟩ w) (e : Fin E) (c' : Fin C)

/-- On the row axis the window starts at the signed integer of the edge's index word. -/
theorem rowScatter_start0 : (rowScatter N E C wf).start (ix2 e c') idx 0 = (idx (ix2 e (0 : Fin 1))).toInt := by
  unfold ScatterDims.start
  rw [dif_pos (show (0 : Fin 2) ∈ (rowScatter N E C wf).scatterDimsToOperandDims from List.mem_singleton.mpr rfl)]
  have hsi : (rowScatter N E C wf).siIdx (ix2 e c') ⟨List.idxOf (0 : Fin 2) (rowScatter N E C wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- On the column axis the window starts at zero. -/
theorem rowScatter_start1 : (rowScatter N E C wf).start (ix2 e c') idx 1 = 0 := by
  unfold ScatterDims.start
  rw [dif_neg (show (1 : Fin 2) ∉ (rowScatter N E C wf).scatterDimsToOperandDims from
    fun h => absurd (congrArg Fin.val (List.mem_singleton.mp h)) Nat.one_ne_zero)]

/-- The row axis is inserted: no window coordinate there. -/
theorem rowScatter_window0 : (rowScatter N E C wf).window (ix2 e c') 0 = 0 := by
  unfold ScatterDims.window
  rw [dif_neg (by simp [ScatterDims.sKept, Shape.kept])]

/-- The column axis carries the update's column. -/
theorem rowScatter_window1 : (rowScatter N E C wf).window (ix2 e c') 1 = c'.val := by
  unfold ScatterDims.window
  rw [dif_pos (by simp [ScatterDims.sKept, Shape.kept])]
  rfl

/-- WHERE AN UPDATE LANDS: update `(e, c')` lands on `(v, c)` exactly when the edge's signed integer is `v` and the
    columns agree. -/
theorem rowScatter_lands (v : Fin N) (c : Fin C) :
    (rowScatter N E C wf).resultIdx? (ix2 e c') idx = some (ix2 v c)
      ↔ (idx (ix2 e (0 : Fin 1))).toInt = (v.val : ℤ) ∧ c' = c := by
  have h0 := rowScatter_start0 wf idx e c'
  have h1 := rowScatter_start1 wf idx e c'
  have w0 := rowScatter_window0 wf e c'
  have w1 := rowScatter_window1 wf e c'
  unfold ScatterDims.resultIdx?
  split
  · rename_i h
    constructor
    · intro hs
      have hf := Option.some.inj hs
      have e0 := congrArg (fun f => (f 0).val) hf
      have e1 := congrArg (fun f => (f 1).val) hf
      simp only at e0 e1
      have hh0 := h 0
      rw [h0, w0] at e0 hh0
      rw [h1, w1] at e1
      refine ⟨?_, Fin.ext ?_⟩
      · change ((idx (ix2 e (0 : Fin 1))).toInt + ((0 : ℕ) : ℤ)).toNat = v.val at e0
        omega
      · change ((0 : ℤ) + (c'.val : ℤ)).toNat = c.val at e1
        omega
    · rintro ⟨hv, rfl⟩
      congr 1
      funext a
      refine Fin.ext ?_
      match a with
      | ⟨0, _⟩ =>
        show ((rowScatter N E C wf).start (ix2 e c') idx 0 + ((rowScatter N E C wf).window (ix2 e c') 0 : ℤ)).toNat = v.val
        rw [h0, w0, hv]; omega
      | ⟨1, _⟩ =>
        show ((rowScatter N E C wf).start (ix2 e c') idx 1 + ((rowScatter N E C wf).window (ix2 e c') 1 : ℤ)).toNat = c'.val
        rw [h1, w1]; omega
  · rename_i h
    constructor
    · intro hs; exact absurd hs (by simp)
    · rintro ⟨hv, rfl⟩
      exfalso
      apply h
      intro a
      match a with
      | ⟨0, _⟩ =>
        show 0 ≤ (rowScatter N E C wf).start (ix2 e c') idx 0 + ((rowScatter N E C wf).window (ix2 e c') 0 : ℤ)
          ∧ (rowScatter N E C wf).start (ix2 e c') idx 0 + ((rowScatter N E C wf).window (ix2 e c') 0 : ℤ) < (N : ℤ)
        rw [h0, w0, hv]; have := v.isLt; omega
      | ⟨1, _⟩ =>
        show 0 ≤ (rowScatter N E C wf).start (ix2 e c') idx 1 + ((rowScatter N E C wf).window (ix2 e c') 1 : ℤ)
          ∧ (rowScatter N E C wf).start (ix2 e c') idx 1 + ((rowScatter N E C wf).window (ix2 e c') 1 : ℤ) < (C : ℤ)
        rw [h1, w1]; have := c'.isLt; omega

end Rows

/-- THE ROW SCATTER-ADD AT `(v, c)`, over the extended reals: the operand's entry plus the updates `(e, c)` of the
    edges whose index word is the signed integer `v`. -/
theorem scatterAdd_rows_apply {N E C w : Nat} (wf : ScatterDims.WF ⟨2, ![N, C]⟩ ⟨2, ![E, 1]⟩ ⟨2, ![E, C]⟩ [1] [0] [0] 1)
    (x : (⟨2, ![N, C]⟩ : Shape).Idx → EReal) (idx : IVec ⟨2, ![E, 1]⟩ w) (upd : (⟨2, ![E, C]⟩ : Shape).Idx → EReal)
    (v : Fin N) (c : Fin C) :
    Ideal.hostScatterAdd (rowScatter N E C wf) x idx upd (ix2 v c)
      = x (ix2 v c) + ∑ e ∈ Finset.univ.filter (fun e : Fin E => (idx (ix2 e (0 : Fin 1))).toInt = (v.val : ℤ)), upd (ix2 e c) := by
  unfold Ideal.hostScatterAdd
  congr 1
  rw [Finset.sum_filter, Finset.sum_filter, sum_idx2]
  refine Finset.sum_congr rfl fun e _ => ?_
  simp only [rowScatter_lands wf idx e _ v c]
  by_cases hq : (idx (ix2 e (0 : Fin 1))).toInt = (v.val : ℤ)
  · simp [hq]
  · simp [hq]

/-- The same, for any record that IS those dimension numbers (a program's own record, by unfolding its definition):
    stated so that the scatter in a goal is matched as it is written and never unfolded. -/
theorem scatterAdd_rows_apply_of {N E C w : Nat} (wf : ScatterDims.WF ⟨2, ![N, C]⟩ ⟨2, ![E, 1]⟩ ⟨2, ![E, C]⟩ [1] [0] [0] 1)
    (r : ScatterDims ⟨2, ![N, C]⟩ ⟨2, ![E, 1]⟩ ⟨2, ![E, C]⟩) (hr : r = rowScatter N E C wf)
    (x : (⟨2, ![N, C]⟩ : Shape).Idx → EReal) (idx : IVec ⟨2, ![E, 1]⟩ w) (upd : (⟨2, ![E, C]⟩ : Shape).Idx → EReal)
    (v : Fin N) (c : Fin C) :
    Ideal.hostScatterAdd r x idx upd (ix2 v c)
      = x (ix2 v c) + ∑ e ∈ Finset.univ.filter (fun e : Fin E => (idx (ix2 e (0 : Fin 1))).toInt = (v.val : ℤ)), upd (ix2 e c) := by
  subst hr
  exact scatterAdd_rows_apply wf x idx upd v c

/-- The same at the exact values, stated of the host operation itself (so that a goal's scatter is matched as written). -/
theorem host_scatterAdd_rows_apply {N E C w : Nat} {φ : FTy} (wf : ScatterDims.WF ⟨2, ![N, C]⟩ ⟨2, ![E, 1]⟩ ⟨2, ![E, C]⟩ [1] [0] [0] 1)
    (r : ScatterDims ⟨2, ![N, C]⟩ ⟨2, ![E, 1]⟩ ⟨2, ![E, C]⟩) (hr : r = rowScatter N E C wf)
    (x : FVec Ideal ⟨2, ![N, C]⟩ φ) (idx : IVec ⟨2, ![E, 1]⟩ w) (upd : FVec Ideal ⟨2, ![E, C]⟩ φ) (v : Fin N) (c : Fin C) :
    Host.scatterAdd r x idx upd (ix2 v c)
      = (x (ix2 v c) : EReal) + ∑ e ∈ Finset.univ.filter (fun e : Fin E => (idx (ix2 e (0 : Fin 1))).toInt = (v.val : ℤ)), (upd (ix2 e c) : EReal) :=
  scatterAdd_rows_apply_of wf r hr x idx upd v c

/-! ## Entries of a flat `[N]` operand -/

/-- The dimension numbers of "update `e` goes to operand entry `idx (e, 0)`". -/
abbrev flatScatter (N E : Nat) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

section Flat
variable {N E w : Nat} (wf : ScatterDims.WF ⟨1, ![N]⟩ ⟨2, ![E, 1]⟩ ⟨1, ![E]⟩ [] [0] [0] 1)
  (idx : IVec ⟨2, ![E, 1]⟩ w) (e : Fin E)

theorem flatScatter_start0 : (flatScatter N E wf).start (ix1 e) idx 0 = (idx (ix2 e (0 : Fin 1))).toInt := by
  unfold ScatterDims.start
  rw [dif_pos (show (0 : Fin 1) ∈ (flatScatter N E wf).scatterDimsToOperandDims from List.mem_singleton.mpr rfl)]
  have hsi : (flatScatter N E wf).siIdx (ix1 e) ⟨List.idxOf (0 : Fin 1) (flatScatter N E wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

theorem flatScatter_window0 : (flatScatter N E wf).window (ix1 e) 0 = 0 := by
  unfold ScatterDims.window
  rw [dif_neg (by simp [ScatterDims.sKept, Shape.kept])]

/-- Update `e` lands on entry `v` exactly when the edge's signed integer is `v`. -/
theorem flatScatter_lands (v : Fin N) :
    (flatScatter N E wf).resultIdx? (ix1 e) idx = some (ix1 v) ↔ (idx (ix2 e (0 : Fin 1))).toInt = (v.val : ℤ) := by
  have h0 := flatScatter_start0 wf idx e
  have w0 := flatScatter_window0 wf e
  unfold ScatterDims.resultIdx?
  split
  · rename_i h
    constructor
    · intro hs
      have hf := Option.some.inj hs
      have e0 := congrArg (fun f => (f 0).val) hf
      simp only at e0
      have hh0 := h 0
      rw [h0, w0] at e0 hh0
      change ((idx (ix2 e (0 : Fin 1))).toInt + ((0 : ℕ) : ℤ)).toNat = v.val at e0
      omega
    · intro hv
      congr 1
      funext a
      obtain rfl : a = 0 := Subsingleton.elim _ _
      refine Fin.ext ?_
      show ((flatScatter N E wf).start (ix1 e) idx 0 + ((flatScatter N E wf).window (ix1 e) 0 : ℤ)).toNat = v.val
      rw [h0, w0, hv]; omega
  · rename_i h
    constructor
    · intro hs; exact absurd hs (by simp)
    · intro hv
      exfalso
      apply h
      intro a
      obtain rfl : a = 0 := Subsingleton.elim _ _
      show 0 ≤ (flatScatter N E wf).start (ix1 e) idx 0 + ((flatScatter N E wf).window (ix1 e) 0 : ℤ)
        ∧ (flatScatter N E wf).start (ix1 e) idx 0 + ((flatScatter N E wf).window (ix1 e) 0 : ℤ) < (N : ℤ)
      rw [h0, w0, hv]; have := v.isLt; omega

end Flat

/-- A rank-1 index set is its one coordinate's range … -/
def idxEquiv1 {n : Nat} : (⟨1, ![n]⟩ : Shape).Idx ≃ Fin n where
  toFun i := i 0
  invFun a := ix1 a
  left_inv i := (eq_ix1 i).symm
  right_inv _ := rfl
/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- THE FLAT SCATTER-ADD AT `v`, over the extended reals. -/
theorem scatterAdd_flat_apply {N E w : Nat} (wf : ScatterDims.WF ⟨1, ![N]⟩ ⟨2, ![E, 1]⟩ ⟨1, ![E]⟩ [] [0] [0] 1)
    (x : (⟨1, ![N]⟩ : Shape).Idx → EReal) (idx : IVec ⟨2, ![E, 1]⟩ w) (upd : (⟨1, ![E]⟩ : Shape).Idx → EReal) (v : Fin N) :
    Ideal.hostScatterAdd (flatScatter N E wf) x idx upd (ix1 v)
      = x (ix1 v) + ∑ e ∈ Finset.univ.filter (fun e : Fin E => (idx (ix2 e (0 : Fin 1))).toInt = (v.val : ℤ)), upd (ix1 e) := by
  unfold Ideal.hostScatterAdd
  congr 1
  rw [Finset.sum_filter, Finset.sum_filter, sum_idx1]
  refine Finset.sum_congr rfl fun e _ => ?_
  simp only [flatScatter_lands wf idx e v]

/-- The same, for any record that IS those dimension numbers. -/
theorem scatterAdd_flat_apply_of {N E w : Nat} (wf : ScatterDims.WF ⟨1, ![N]⟩ ⟨2, ![E, 1]⟩ ⟨1, ![E]⟩ [] [0] [0] 1)
    (r : ScatterDims ⟨1, ![N]⟩ ⟨2, ![E, 1]⟩ ⟨1, ![E]⟩) (hr : r = flatScatter N E wf)
    (x : (⟨1, ![N]⟩ : Shape).Idx → EReal) (idx : IVec ⟨2, ![E, 1]⟩ w) (upd : (⟨1, ![E]⟩ : Shape).Idx → EReal) (v : Fin N) :
    Ideal.hostScatterAdd r x idx upd (ix1 v)
      = x (ix1 v) + ∑ e ∈ Finset.univ.filter (fun e : Fin E => (idx (ix2 e (0 : Fin 1))).toInt = (v.val : ℤ)), upd (ix1 e) := by
  subst hr
  exact scatterAdd_flat_apply wf x idx upd v

/-- The same at the exact values, stated of the host operation itself. -/
theorem host_scatterAdd_flat_apply {N E w : Nat} {φ : FTy} (wf : ScatterDims.WF ⟨1, ![N]⟩ ⟨2, ![E, 1]⟩ ⟨1, ![E]⟩ [] [0] [0] 1)
    (r : ScatterDims ⟨1, ![N]⟩ ⟨2, ![E, 1]⟩ ⟨1, ![E]⟩) (hr : r = flatScatter N E wf)
    (x : FVec Ideal ⟨1, ![N]⟩ φ) (idx : IVec ⟨2, ![E, 1]⟩ w) (upd : FVec Ideal ⟨1, ![E]⟩ φ) (v : Fin N) :
    Host.scatterAdd r x idx upd (ix1 v)
      = (x (ix1 v) : EReal) + ∑ e ∈ Finset.univ.filter (fun e : Fin E => (idx (ix2 e (0 : Fin 1))).toInt = (v.val : ℤ)), (upd (ix1 e) : EReal) :=
  scatterAdd_flat_apply_of wf r hr x idx upd v

end Cert.RowIndex

end
-- ==== Proof.RefValue.lean ====
/-
  The reference program's value is the gradient-harmonized loss written as one sum over the elements.

  The program is read one operation at a time. Per element e of the 4194304 × 16 arrays it forms the validity bit
  (label weight above zero) and its number 0 or 1, the bin word (|sigmoid p - t| · 10 cut toward zero and clipped
  into 0..9, the sigmoid spelled 1 / (1 + exp (-p))) and the cross-entropy term max p 0 - p·t + log (1 + exp (-|p|)).
  The scalars are T = max (∑ validity numbers) 1 and n = max (number of bins with a positive count) 1. The count of
  bin b is a segment sum over the flat view of the arrays: entry b of a zero table receives the validity numbers of
  the flat positions u whose bin word, read signed, is b; position u of the flat view is element (u / 16, u % 16), so
  re-indexing the positions by the elements gives the sum over the elements whose bin word is b. The weight table is
  T / max (count b) 1, and an element's weight is the table entry its bin word selects (wrapped once if negative, read
  signed and clamped into 0..9), or 0 where the element is not valid, divided by n. The result is
  (∑ over the elements of weight · cross-entropy term) / T, times the constant 1.

  Every "0 +" in front of a sum and the final "· 1" are the literals 0.0 and 1.0, which denote 0 and 1.
-/
import proofs.«167816_j4818953306441_2_alg».proof.Proof.ReadP
import proofs.«167816_j4818953306441_2_alg».proof.Proof.GhmElem
import proofs.«167816_j4818953306441_2_alg».proof.Proof.GhmIndex
import proofs.«167816_j4818953306441_2_alg».proof.Proof.LibRowScatter
import Idealize.ShloMosaic.Lib.ValueIdx

noncomputable section

open scoped BigOperators

namespace Cert.Ghm.Ref

open Idealize.ShloMosaic Idealize.ShloMosaic.ValueIdx Cert.ReferenceIdeal Cert.ReferenceIdeal.Gen Cert.ReferenceIdeal.ReadP Cert.Ghm Cert.RowIndex

variable (x0 : SE.Idx → EReal) (x1 : SE.Idx → BitVec 32) (x2 : SE.Idx → EReal)

/-! ## One element -/

/-- The validity bit of an element: is its label weight above zero. -/
theorem vbit_apply (e : SE.Idx) : val_main_v2 (F := Ideal) x2 e = vbit (x2 e) := by
  rw [val_main_v2_apply, val_main_v1_apply, val_main_cst_apply]
  show Ideal.cmp .ogt (x2 e) (Ideal.ofBits .f32 0x00000000#32) = _
  rw [Ideal.ofBits_zero_f32]
  rfl

/-- The validity number of an element. -/
theorem valid_apply (e : SE.Idx) : val_main_v3 (F := Ideal) x2 e = vOf (vbit (x2 e)) := by
  rw [val_main_v3_apply, vbit_apply]
  rfl

/-- The sigmoid of the prediction, spelled 1 / (1 + exp (-p)). -/
theorem sigmoid_apply (e : SE.Idx) : val_main_v11 (F := Ideal) x0 e = Ideal.logistic (x0 e) := by
  rw [val_main_v11_apply, val_main_v10_apply, val_main_cst_3_apply, val_main_v9_apply, val_main_v8_apply,
    val_main_cst_2_apply, val_main_v7_apply, val_main_v6_apply]
  show Ideal.div (Ideal.ofBits .f32 0x3F800000#32) (Ideal.ofBits .f32 0x3F800000#32 + Ideal.exp (-(x0 e))) = _
  rw [ofBits_one_f32]
  rfl

/-- The target word as a number. -/
theorem target_apply (e : SE.Idx) : val_main_v0 (F := Ideal) x1 e = tF (x1 e) := rfl

/-- The bin word of an element. -/
theorem bin_apply (e : SE.Idx) : val_main_v17 (F := Ideal) x0 x1 e = gbin (x0 e) (x1 e) := by
  rw [val_main_v17_apply, val_main_call0_v4_apply, val_main_call0_v3_apply, val_main_c_5_apply,
    val_main_call0_v2_apply, val_main_call0_v1_apply, val_main_call0_v0_apply, val_main_c_apply,
    val_main_v16_apply, val_main_v15_apply, val_main_v14_apply, val_main_cst_4_apply, val_main_v13_apply,
    val_main_v12_apply, sigmoid_apply, target_apply]
  rfl

/-- The cross-entropy term of an element. -/
theorem bce_apply (e : SE.Idx) : val_main_v50 (F := Ideal) x0 x1 e = bce (x0 e) (x1 e) := by
  rw [val_main_v50_apply, val_main_v45_apply, val_main_v43_apply, val_main_v42_apply, val_main_cst_14_apply,
    val_main_v44_apply, target_apply, val_main_v49_apply, val_main_v48_apply, val_main_v47_apply, val_main_v46_apply]
  show (max (x0 e) (Ideal.ofBits .f32 0x00000000#32) - x0 e * tF (x1 e))
    + Ideal.log1p (Ideal.exp (-(max (x0 e) (-(x0 e))))) = _
  rw [Ideal.ofBits_zero_f32]
  rfl

/-! ## The scalars and the per-bin arrays -/

/-- The validity bits, the bin words and the cross-entropy terms of the three argument arrays. -/
abbrev vbF : SE.Idx → BitVec 1 := fun e => vbit (x2 e)
abbrev kF : SE.Idx → BitVec 32 := fun e => gbin (x0 e) (x1 e)
abbrev βF : SE.Idx → EReal := fun e => bce (x0 e) (x1 e)

/-- T: the number of valid elements, at least 1. -/
theorem tot_apply (i : S_.Idx) : val_main_v5 (F := Ideal) x2 i = capT (vbF x2) := by
  rw [val_main_v5_apply, val_main_v4_apply, val_main_cst_0_apply, val_main_cst_1_apply]
  show max (Ideal.ofBits .f32 0x00000000#32 + ∑ j : SE.Idx, val_main_v3 (F := Ideal) x2 j)
    (Ideal.ofBits .f32 0x3F800000#32) = _
  rw [Ideal.ofBits_zero_f32, zero_add, ofBits_one_f32]
  unfold capT totOf
  exact congrArg (fun s => max s 1) (Finset.sum_congr rfl fun e _ => valid_apply x2 e)

/-- The flat view's entry u is the array's element flat u: the bin words … -/
theorem flat_word (u : Fin 67108864) :
    val_main_v21 (F := Ideal) x0 x1 (ix2 u (0 : Fin 1)) = gbin (x0 (flat u)) (x1 (flat u)) := by
  rw [val_main_v21_apply, val_main_v19_apply]
  have h : idx_main_v19 (idx_main_v21 (ix2 u (0 : Fin 1))) = flat u := idx_ext _ _ rfl rfl
  rw [h, bin_apply]

/-- … and the validity numbers. -/
theorem flat_valid (u : Fin 67108864) :
    val_main_v18 (F := Ideal) x2 (ix1 u) = vOf (vbit (x2 (flat u))) := by
  rw [val_main_v18_apply]
  have h : idx_main_v18 (ix1 u) = flat u := idx_ext _ _ rfl rfl
  rw [h, valid_apply]

/-- The segment sum: entry b is the number of valid elements whose bin word is b. -/
theorem cnt_apply (b : Fin 10) :
    val_main_v22 (F := Ideal) x0 x1 x2 (ix1 b) = cntR (vbF x2) (kF x0 x1) b := by
  have h := host_scatterAdd_flat_apply (φ := .f32) Facts₀.scatter_S10_S67108864x1_S67108864_n_0_0_1_wf
    scatter_S10_S67108864x1_S67108864_n_0_0_1 rfl (val_main_v20 (F := Ideal)) (val_main_v21 (F := Ideal) x0 x1)
    (val_main_v18 (F := Ideal) x2) b
  unfold val_main_v22
  refine h.trans ?_
  rw [val_main_v20_apply, val_main_cst_6_apply]
  show Ideal.ofBits .f32 0x00000000#32 + _ = _
  rw [Ideal.ofBits_zero_f32, zero_add]
  rw [Finset.filter_congr (q := fun u : Fin 67108864 => (gbin (x0 (flat u)) (x1 (flat u))).toInt = (b.val : ℤ))
    (fun u _ => by rw [flat_word])]
  rw [Finset.sum_congr rfl (fun u _ => flat_valid x2 u)]
  exact sum_flat_filter (fun e => (gbin (x0 e) (x1 e)).toInt = (b.val : ℤ)) (fun e => vOf (vbit (x2 e)))

/-- n: the number of non-empty bins, at least 1. -/
theorem n_apply (i : S_.Idx) :
    val_main_v27 (F := Ideal) x0 x1 x2 i = nOf (cntR (vbF x2) (kF x0 x1)) := by
  rw [val_main_v27_apply, val_main_v26_apply, val_main_cst_8_apply, val_main_cst_9_apply]
  show max (Ideal.ofBits .f32 0x00000000#32 + ∑ j : S10.Idx, val_main_v25 (F := Ideal) x0 x1 x2 j)
    (Ideal.ofBits .f32 0x3F800000#32) = _
  rw [Ideal.ofBits_zero_f32, zero_add, ofBits_one_f32, sum_idx1]
  unfold nOf
  refine congrArg (fun s => max s 1) (Finset.sum_congr rfl fun b _ => ?_)
  rw [val_main_v25_apply, val_main_v24_apply, cnt_apply, val_main_v23_apply, val_main_cst_7_apply]
  show vOf (Ideal.cmp .ogt _ (Ideal.ofBits .f32 0x00000000#32)) = _
  rw [Ideal.ofBits_zero_f32]

/-- The weight of bin b: T over its count, the count at least 1. -/
theorem w_apply (b : Fin 10) :
    val_main_v31 (F := Ideal) x0 x1 x2 (ix1 b)
      = Ideal.div (capT (vbF x2)) (max (cntR (vbF x2) (kF x0 x1) b) 1) := by
  rw [val_main_v31_apply, val_main_v30_apply, tot_apply, val_main_v29_apply, cnt_apply, val_main_v28_apply,
    val_main_cst_10_apply]
  show Ideal.div _ (max _ (Ideal.ofBits .f32 0x3F800000#32)) = _
  rw [ofBits_one_f32]

/-! ## The weight of an element -/

/-- The table index of an element: its bin word, wrapped once when negative. -/
theorem wrap_apply (e : SE.Idx) : val_main_v36 (F := Ideal) x0 x1 e = wrap10 (gbin (x0 e) (x1 e)) := by
  rw [val_main_v36_apply, val_main_v33_apply, val_main_v35_apply, bin_apply, val_main_v32_apply,
    val_main_c_11_apply, val_main_v34_apply, val_main_c_12_apply]
  rfl

/-- The gather: the element's entry of the bin-weight table is the one its table index selects, read signed and
    clamped into 0..9. -/
theorem gathered_apply (e : SE.Idx) :
    val_main_v38 (F := Ideal) x0 x1 x2 e
      = val_main_v31 (F := Ideal) x0 x1 x2 (ix1 (clamp10 (wrap10 (gbin (x0 e) (x1 e))))) := by
  have hg : gather_S10_S4194304x16x1_S4194304x16_n_0_n_n_0_2_1
      = takeDims 10 4194304 16 Facts₀.gather_S10_S4194304x16x1_S4194304x16_n_0_n_n_0_2_1_wf := rfl
  have hi : idx_main_v37 (takeIdx e) = e := idx_ext _ _ rfl rfl
  have hw : val_main_v37 (F := Ideal) x0 x1 (takeIdx e) = wrap10 (gbin (x0 e) (x1 e)) := by
    rw [val_main_v37_apply, hi, wrap_apply]
  unfold val_main_v38
  rw [hg, gather_take_apply (by decide : 0 < 10)]
  refine congrArg (fun j => val_main_v31 (F := Ideal) x0 x1 x2 (ix1 j)) (Fin.ext ?_)
  show min (val_main_v37 (F := Ideal) x0 x1 (takeIdx e)).toInt.toNat (10 - 1)
    = min (wrap10 (gbin (x0 e) (x1 e))).toInt.toNat 9
  rw [hw]

/-- The weight of an element: its bin's weight over n where it is valid, else 0 over n. -/
theorem weight_apply (e : SE.Idx) :
    val_main_v41 (F := Ideal) x0 x1 x2 e
      = Ideal.div (selR (vbF x2) (kF x0 x1) e) (nOf (cntR (vbF x2) (kF x0 x1))) := by
  rw [val_main_v41_apply, val_main_v39_apply, vbit_apply, gathered_apply, w_apply, val_main_call1_v1_apply,
    val_main_call1_v0_apply, val_main_cst_13_apply, val_main_v40_apply, n_apply]
  show Ideal.div (Scalar.select _ _ (Ideal.ofBits .f32 0x00000000#32)) _ = _
  rw [Ideal.ofBits_zero_f32]
  rfl

/-! ## The result -/

/-- THE REFERENCE'S VALUE: the loss as one sum over the elements. -/
theorem ref_value :
    Cert.ReferenceIdeal.ReadP.val_main_v54 (F := Ideal) x0 x1 x2 ValueIdx.ix0
      = Cert.Ghm.rLoss (fun e => Cert.Ghm.vbit (x2 e)) (fun e => Cert.Ghm.gbin (x0 e) (x1 e))
          (fun e => Cert.Ghm.bce (x0 e) (x1 e)) := by
  rw [val_main_v54_apply, val_main_v53_apply, val_main_v52_apply, val_main_cst_15_apply, tot_apply,
    val_main_cst_16_apply]
  show Ideal.div (Ideal.ofBits .f32 0x00000000#32 + ∑ j : SE.Idx, val_main_v51 (F := Ideal) x0 x1 x2 j)
    (capT (vbF x2)) * Ideal.ofBits .f32 0x3F800000#32 = _
  rw [Ideal.ofBits_zero_f32, zero_add, ofBits_one_f32, mul_one]
  unfold rLoss
  refine congrArg (fun s => Ideal.div s (capT (vbF x2))) (Finset.sum_congr rfl fun e _ => ?_)
  rw [val_main_v51_apply, weight_apply, bce_apply]
  rfl

end Cert.Ghm.Ref

end
-- ==== Proof.KPoint.lean ====
/-
  What one grid point of the histogram kernel leaves in its [1, 32, 128] output block.

  A grid point holds a [4096, 128] block of predictions `x0`, of integer targets `x1` and of label weights `x2`.
  From them it forms, lane by lane (column by column of the block), for each of the ten bins `b` the number of valid
  entries of the column whose bin is `b` (`binCnt`), their cross-entropy mass (`binS`), and the number of valid
  entries of the column (`totCol`); it places those 21 rows of 128 lanes at rows `b`, `16 + b` and `10` of a zero
  [32, 128] tile (`placeRow`), adds the 21 tiles up (`deltaTile`) and adds the result to what the block held before
  (`stored`). At the first point of a core's sweep the block is zeroed first, so the point leaves `0 + delta`;
  at the later points it leaves `previous + delta`.
-/
import proofs.«167816_j4818953306441_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.KV

open Cert.KernelIdeal Cert.KernelIdeal.Gen

variable {F : FTy → Type} [FloatOps F]

theorem hz3 : (![0, 0, 0] : Fin 3 → Nat) = fun _ => 0 := funext fun a => by fin_cases a <;> rfl
theorem hz2 : (![0, 0] : Fin 2 → Nat) = fun _ => 0 := funext fun a => by fin_cases a <;> rfl

/-- The row-number tile: entry `(ρ, l)` is `ρ`. -/
abbrev rowNo : IVec S32x128 32 := iota .tc S32x128 32 [0] iota_S32x128_d0_w32

/-- Entry by entry, is the bin word `b`? — as a float 0 or 1. -/
def maskB (v23 : IVec S4096x128 32) (b : BitVec 32) : FVec F S4096x128 .f32 :=
  sitofp .f32 (extui 32 (cmpi .eq v23 (broadcast S4096x128 b)) natLt_1_32)

/-- Per lane, the number of valid entries of bin `b`. -/
def binCnt (v13 : FVec F S4096x128 .f32) (v23 : IVec S4096x128 32) (b : BitVec 32) : FVec F S128 .f32 :=
  multiReduction .add [0] S128 (mulf v13 (maskB v23 b)) 0x00000000#32 reduces_S4096x128_S128 (.inl rfl) rfl

/-- Per lane, the cross-entropy mass of the valid entries of bin `b`. -/
def binS (v13 : FVec F S4096x128 .f32) (v23 : IVec S4096x128 32) (v33 : FVec F S4096x128 .f32) (b : BitVec 32) : FVec F S128 .f32 :=
  multiReduction .add [0] S128 (mulf (mulf v13 (maskB v23 b)) v33) 0x00000000#32 reduces_S4096x128_S128 (.inl rfl) rfl

/-- Per lane, the number of valid entries. -/
def totCol (v13 : FVec F S4096x128 .f32) : FVec F S128 .f32 :=
  multiReduction .add [0] S128 v13 0x00000000#32 reduces_S4096x128_S128 (.inl rfl) rfl

/-- A row of 128 lanes placed at row `j` of a zero [32, 128] tile. -/
def placeRow (j : BitVec 32) (row : FVec F S128 .f32) : FVec F S32x128 .f32 :=
  select (cmpi .eq rowNo (broadcast S32x128 j))
    (broadcastTo S32x128 (shapeCast S1x128 (shapeCast S1x128 row shapeCasts_S128_S1x128) shapeCasts_S1x128_S1x128) broadcasts_S1x128_S32x128)
    (broadcast S32x128 (Scalar.ofBits .f32 0x00000000#32))

/-- The tile one grid point adds: the 21 placed rows, added up from the zero tile in the kernel's order. -/
def deltaTile (x0 : Vec F S4096x128 .f32) (x1 : Vec F S4096x128 .i32) (x2 : Vec F S4096x128 .f32) : FVec F S32x128 .f32 :=
  let v13 := k0_pay5 x2
  let v23 := k0_pay6 x0 x1
  let v33 := k0_pay7 x0 x1
  let z : FVec F S32x128 .f32 := broadcast S32x128 (Scalar.ofBits .f32 0x00000000#32)
  addf (addf (addf (addf (addf (addf (addf (addf (addf (addf (addf (addf (addf (addf (addf (addf (addf (addf (addf (addf (addf z
    (placeRow 0#32 (binCnt v13 v23 0#32))) (placeRow 16#32 (binS v13 v23 v33 0#32)))
    (placeRow 1#32 (binCnt v13 v23 1#32))) (placeRow 17#32 (binS v13 v23 v33 1#32)))
    (placeRow 2#32 (binCnt v13 v23 2#32))) (placeRow 18#32 (binS v13 v23 v33 2#32)))
    (placeRow 3#32 (binCnt v13 v23 3#32))) (placeRow 19#32 (binS v13 v23 v33 3#32)))
    (placeRow 4#32 (binCnt v13 v23 4#32))) (placeRow 20#32 (binS v13 v23 v33 4#32)))
    (placeRow 5#32 (binCnt v13 v23 5#32))) (placeRow 21#32 (binS v13 v23 v33 5#32)))
    (placeRow 6#32 (binCnt v13 v23 6#32))) (placeRow 22#32 (binS v13 v23 v33 6#32)))
    (placeRow 7#32 (binCnt v13 v23 7#32))) (placeRow 23#32 (binS v13 v23 v33 7#32)))
    (placeRow 8#32 (binCnt v13 v23 8#32))) (placeRow 24#32 (binS v13 v23 v33 8#32)))
    (placeRow 9#32 (binCnt v13 v23 9#32))) (placeRow 25#32 (binS v13 v23 v33 9#32)))
    (placeRow 10#32 (totCol v13))

/-- What the point stores: the block's previous contents plus the tile, viewed [1, 32, 128]. -/
def stored (x0 : Vec F S4096x128 .f32) (x1 : Vec F S4096x128 .i32) (x2 : Vec F S4096x128 .f32) (prev : Vec F S1x32x128 .f32) :
    Vec F S1x32x128 .f32 :=
  shapeCast S1x32x128 (addf (shapeCast S32x128 prev shapeCasts_S1x32x128_S32x128) (deltaTile x0 x1 x2)) shapeCasts_S32x128_S1x32x128

/-- The body's last store, over its loads, is `stored`: the printed payloads are this term. -/
theorem payload_eq (x0 : Vec F S4096x128 .f32) (x1 : Vec F S4096x128 .i32) (x2 : Vec F S4096x128 .f32) (prev : Vec F S1x32x128 .f32) :
    k0_pay1 (k0_pay5 x2) rowNo
      (k0_pay21 (k0_pay5 x2) (k0_pay6 x0 x1) (k0_pay7 x0 x1) rowNo
        (k0_pay16 (k0_pay5 x2) (k0_pay6 x0 x1) (k0_pay7 x0 x1) rowNo
          (k0_pay14 (k0_pay5 x2) (k0_pay6 x0 x1) (k0_pay7 x0 x1) rowNo
            (k0_pay12 (k0_pay5 x2) (k0_pay6 x0 x1) (k0_pay7 x0 x1) rowNo
              (k0_pay10 (k0_pay5 x2) (k0_pay6 x0 x1) (k0_pay7 x0 x1) rowNo k0_pay8 (k0_pay9 x0 x1 x2))
              (k0_pay11 (k0_pay6 x0 x1)))
            k0_pay13))
        (k0_pay17 rowNo) (k0_pay18 (k0_pay5 x2) (k0_pay6 x0 x1) (k0_pay7 x0 x1)) k0_pay19)
      (k0_pay22 rowNo) (k0_pay23 (k0_pay5 x2) (k0_pay6 x0 x1) (k0_pay7 x0 x1)) prev
    = stored x0 x1 x2 prev := by
  unfold stored deltaTile
  rfl

/-- A later point of a sweep (the block is not zeroed): it leaves the previous contents plus the tile. -/
theorem out_B (c : Dev nD) (i : grid0.Coords) (a2 : Memref sig .tc .vmem S4096x128 .f32) (h2 : a2.IsWhole)
    (a3 : Memref sig .tc .vmem S4096x128 .i32) (h3 : a3.IsWhole) (a4 : Memref sig .tc .vmem S4096x128 .f32) (h4 : a4.IsWhole)
    (a5 : Memref sig .tc .vmem S1x32x128 .f32) (h5 : a5.IsWhole) (hc : ¬cond0_0 i)
    (x0 : Vec F S4096x128 .f32) (x1 : Vec F S4096x128 .i32) (x2 : Vec F S4096x128 .f32) (xo : Vec F S1x32x128 .f32) :
    out0_B_3 c i a2 h2 a3 h3 a4 h4 a5 h5 hc x0 x1 x2 xo = stored x0 x1 x2 xo := by
  unfold out0_B_3
  rw [View.read_writes_eq_canon _ _ _ (cover0_B_3 c i a2 h2 a3 h3 a4 h4 a5 h5 hc x0 x1 x2 xo)]
  unfold kernelRun0_B
  dsimp only
  sl_unfold_words
  rw [View.canon_unit_zero hz3]
  simp only [View.readAt_eq_ld, h2.read_unread, h3.read_unread, h4.read_unread, h5.read_unread,
    View.ld_unit_zero (S := S4096x128) hz2, View.ld_unit_zero (S := S1x32x128) hz3]
  exact payload_eq x0 x1 x2 xo

/-- The first point of a sweep: the block is zeroed, read back, and the tile added to the zero block. -/
theorem out_A (c : Dev nD) (i : grid0.Coords) (a2 : Memref sig .tc .vmem S4096x128 .f32) (h2 : a2.IsWhole)
    (a3 : Memref sig .tc .vmem S4096x128 .i32) (h3 : a3.IsWhole) (a4 : Memref sig .tc .vmem S4096x128 .f32) (h4 : a4.IsWhole)
    (a5 : Memref sig .tc .vmem S1x32x128 .f32) (h5 : a5.IsWhole) (hc : cond0_0 i)
    (x0 : Vec F S4096x128 .f32) (x1 : Vec F S4096x128 .i32) (x2 : Vec F S4096x128 .f32) :
    out0_A_3 c i a2 h2 a3 h3 a4 h4 a5 h5 hc x0 x1 x2 = stored x0 x1 x2 k0_pay2 := by
  unfold out0_A_3
  rw [View.read_writes_eq_canon _ _ _ (cover0_A_3 c i a2 h2 a3 h3 a4 h4 a5 h5 hc x0 x1 x2)]
  unfold kernelRun0_A
  dsimp only
  sl_unfold_words
  rw [View.canon_cons_unit_zero (S := S1x32x128) hz3, View.readCov_unit_zero (S := S1x32x128) _ hz3]
  simp only [View.readAt_eq_ld, h2.read_unread, h3.read_unread, h4.read_unread,
    View.ld_unit_zero (S := S4096x128) hz2, View.ld_unit_zero (S := S1x32x128) hz3]
  exact payload_eq x0 x1 x2 k0_pay2

end Cert.KernelIdeal.KV

end
-- ==== Proof.LibResetSum.lean ====
/-
  An accumulator that is reset every `B` steps.

  Steps are numbered `0, 1, 2, …`; step `n` contributes a term `P n` of an additive commutative monoid. At a step whose
  number is divisible by `B` the accumulator is set to the step's term alone; at every other step the term is added to
  what the accumulator holds. `running B P n` is what it holds after step `n`. Then

    * after step `n` it holds the terms of the steps since the last multiple of `B`:
      `running B P n = ∑ i < n % B + 1, P (n − n % B + i)`  (`running_eq`);
    * after the last step of the `c`-th group of `B` steps it holds the sum of the group's `B` terms:
      `running B P (B c + (B − 1)) = ∑ t < B, P (B c + t)`  (`running_last`).

  Only associativity of the sum is used (no subtraction, no cancellation), so the statements apply to the extended
  reals as they are. This is what an output block of a grid computation holds when it is zeroed at the first point of a
  reduction axis of extent `B` and added into at the later ones.
-/
import Mathlib.Algebra.BigOperators.Fin
import Mathlib.Tactic.Common

open scoped BigOperators

namespace Cert.LibResetSum

variable {M : Type*} [AddCommMonoid M]

/-- What the accumulator holds after step `n`. -/
def running (B : ℕ) (P : ℕ → M) : ℕ → M
  | 0 => P 0
  | n + 1 => if (n + 1) % B = 0 then P (n + 1) else running B P n + P (n + 1)

theorem running_zero (B : ℕ) (P : ℕ → M) : running B P 0 = P 0 := rfl

/-- A step divisible by `B` resets. -/
theorem running_reset (B : ℕ) (P : ℕ → M) (n : ℕ) (h : (n + 1) % B = 0) : running B P (n + 1) = P (n + 1) := by
  rw [running, if_pos h]

/-- Every other step adds. -/
theorem running_step (B : ℕ) (P : ℕ → M) (n : ℕ) (h : ¬(n + 1) % B = 0) :
    running B P (n + 1) = running B P n + P (n + 1) := by
  rw [running, if_neg h]

/-- Unless `n + 1` is divisible by `B`, its remainder is the remainder of `n` plus one. -/
theorem succ_mod_of_ne (B n : ℕ) (h : ¬(n + 1) % B = 0) : (n + 1) % B = n % B + 1 := by
  rcases Nat.eq_zero_or_pos B with rfl | hB
  · simp
  · have hr : n % B < B := Nat.mod_lt n hB
    have hn : B * (n / B) + n % B = n := Nat.div_add_mod n B
    by_cases hlt : n % B + 1 < B
    · have e : n + 1 = B * (n / B) + (n % B + 1) := by omega
      calc (n + 1) % B = (B * (n / B) + (n % B + 1)) % B := congrArg (· % B) e
        _ = (n % B + 1) % B := Nat.mul_add_mod _ _ _
        _ = n % B + 1 := Nat.mod_eq_of_lt hlt
    · exfalso
      apply h
      have h1 : n % B + 1 = B := by omega
      have e : n + 1 = B * (n / B + 1) := by rw [Nat.mul_add, Nat.mul_one]; omega
      rw [e]
      exact Nat.mul_mod_right _ _

/-- After step `n` the accumulator holds the terms of the steps since the last multiple of `B`. -/
theorem running_eq (B : ℕ) (P : ℕ → M) : ∀ n : ℕ, running B P n = ∑ i ∈ Finset.range (n % B + 1), P (n - n % B + i)
  | 0 => by simp [running]
  | n + 1 => by
    by_cases h : (n + 1) % B = 0
    · rw [running_reset B P n h, h]
      simp
    · have h1 := succ_mod_of_ne B n h
      have hle : n % B ≤ n := Nat.mod_le n B
      have h2 : n + 1 - (n % B + 1) = n - n % B := by omega
      have h3 : n - n % B + (n % B + 1) = n + 1 := by omega
      rw [running_step B P n h, running_eq B P n, h1, h2,
        Finset.sum_range_succ (fun i => P (n - n % B + i)) (n % B + 1), h3]

/-- After the last step of the `c`-th group of `B` steps it holds the sum of the group's `B` terms. -/
theorem running_last (B : ℕ) (hB : 0 < B) (P : ℕ → M) (c : ℕ) :
    running B P (B * c + (B - 1)) = ∑ t : Fin B, P (B * c + t.val) := by
  have h1 : (B * c + (B - 1)) % B = B - 1 := by
    rw [Nat.mul_add_mod]
    exact Nat.mod_eq_of_lt (by omega)
  have h2 : B * c + (B - 1) - (B - 1) = B * c := Nat.add_sub_cancel ..
  have h3 : B - 1 + 1 = B := Nat.sub_add_cancel hB
  rw [running_eq, h1, h2, h3]
  exact Finset.sum_range fun i => P (B * c + i)

end Cert.LibResetSum
-- ==== Proof.KAcc.lean ====
/-
  The histogram array after the run.

  A core's output block is zeroed at the first of its 64 grid points and added into at each point, and written back
  after the last one. So, entry by entry, what the block holds after point `n` is the sum of the tiles of the points
  since the last multiple of 64 (`outsAt_eq`), what is written back at point `64 c + 63` is the sum of the 64 tiles
  of core `c`, and the [2, 32, 128] array ends holding, at `(c, ρ, l)`, the sum over `i < 64` of the tile of point
  `64 c + i` at `(ρ, l)` (`hist`, `final_hist`).
-/
import proofs.«167816_j4818953306441_2_alg».proof.Proof.KPoint
import proofs.«167816_j4818953306441_2_alg».proof.Proof.LibResetSum
import Idealize.ShloMosaic.Lib.ValueLayout
import Idealize.ShloMosaic.Lib.ValueIdx
import Idealize.ShloMosaic.PureOps.Ideal.Laws

noncomputable section

open Idealize.ShloMosaic Idealize.ShloMosaic.TcCoe Idealize.SL.Sem Idealize.ShloMosaic.ValueIdx
open Idealize.ShloMosaic.Pipeline (Dat)
open scoped BigOperators

namespace Cert.KernelIdeal.KV

open Cert.KernelIdeal Cert.KernelIdeal.Gen

/-- What a point stores, entry by entry: the previous entry plus the tile's. -/
theorem stored_apply (x0 : Vec Ideal S4096x128 .f32) (x1 : Vec Ideal S4096x128 .i32) (x2 : Vec Ideal S4096x128 .f32)
    (prev : Vec Ideal S1x32x128 .f32) (ρ : Fin 32) (l : Fin 128) :
    stored (F := Ideal) x0 x1 x2 prev (ix3 (0 : Fin 1) ρ l)
      = prev (ix3 (0 : Fin 1) ρ l) + deltaTile (F := Ideal) x0 x1 x2 (ix2 ρ l) := by
  unfold stored
  rw [shapeCast_ab_1ab_apply, addf_apply, shapeCast_1ab_ab_apply]

/-- The zero block is zero. -/
theorem zero_block_apply (ρ : Fin 32) (l : Fin 128) : k0_pay2 (F := Ideal) (ix3 (0 : Fin 1) ρ l) = 0 := by
  unfold k0_pay2
  rw [shapeCast_ab_1ab_apply]
  exact Ideal.ofBits_zero_f32

variable (m : (ℓ : Loc nD τ sig) → Buf (Elt Ideal) ℓ) (ρ' : Dev nD → PrngReg)

/-- The tile's entry `(ρ, l)` at grid point `n` (zero past the grid). -/
def term (c : Dev nD) (ρ : Fin 32) (l : Fin 128) (n : ℕ) : EReal :=
  if h : n < cfg0.N then
    deltaTile (F := Ideal) (iblk m c 0 ⟨n, h⟩) (iblk m c 1 ⟨n, h⟩) (iblk m c 2 ⟨n, h⟩) (ix2 ρ l)
  else 0

/-- After point `n` the block holds, entry by entry, the tiles summed since the last multiple of 64. -/
theorem outsAt_eq (c : Dev nD) (ρ : Fin 32) (l : Fin 128) : ∀ (n : ℕ) (h : n < cfg0.N),
    outsAt0 m c n h (ix3 (0 : Fin 1) ρ l) = Cert.LibResetSum.running 64 (term m c ρ l) n
  | 0, h => by
    have e := congrFun ((outsAt0_A m c ⟨0, h⟩ rfl).trans (out_A (F := Ideal) c (grid0.coords ⟨0, h⟩) _ _ _ _ _ _ _ _ _
      (iblk m c 0 ⟨0, h⟩) (iblk m c 1 ⟨0, h⟩) (iblk m c 2 ⟨0, h⟩))) (ix3 (0 : Fin 1) ρ l)
    refine e.trans ?_
    refine (stored_apply (iblk m c 0 ⟨0, h⟩) (iblk m c 1 ⟨0, h⟩) (iblk m c 2 ⟨0, h⟩) (k0_pay2 (F := Ideal)) ρ l).trans ?_
    rw [zero_block_apply, zero_add, Cert.LibResetSum.running_zero, term, dif_pos h]
  | n + 1, h => by
    by_cases h0 : (n + 1) % 64 = 0
    · have e := congrFun ((outsAt0_A m c ⟨n + 1, h⟩ h0).trans (out_A (F := Ideal) c (grid0.coords ⟨n + 1, h⟩) _ _ _ _ _ _ _ _ _
        (iblk m c 0 ⟨n + 1, h⟩) (iblk m c 1 ⟨n + 1, h⟩) (iblk m c 2 ⟨n + 1, h⟩))) (ix3 (0 : Fin 1) ρ l)
      refine e.trans ?_
      refine (stored_apply (iblk m c 0 ⟨n + 1, h⟩) (iblk m c 1 ⟨n + 1, h⟩) (iblk m c 2 ⟨n + 1, h⟩) (k0_pay2 (F := Ideal)) ρ l).trans ?_
      rw [zero_block_apply, zero_add, Cert.LibResetSum.running_reset 64 _ n h0, term, dif_pos h]
    · have e := congrFun ((outsAt0_B m c ⟨n + 1, h⟩ h0).trans (out_B (F := Ideal) c (grid0.coords ⟨n + 1, h⟩) _ _ _ _ _ _ _ _ _
        (iblk m c 0 ⟨n + 1, h⟩) (iblk m c 1 ⟨n + 1, h⟩) (iblk m c 2 ⟨n + 1, h⟩)
        (outsAt0 m c n (Nat.lt_of_succ_lt h)))) (ix3 (0 : Fin 1) ρ l)
      refine e.trans ?_
      refine (stored_apply (iblk m c 0 ⟨n + 1, h⟩) (iblk m c 1 ⟨n + 1, h⟩) (iblk m c 2 ⟨n + 1, h⟩)
        (outsAt0 m c n (Nat.lt_of_succ_lt h)) ρ l).trans ?_
      rw [Cert.LibResetSum.running_step 64 _ n h0, outsAt_eq c ρ l n (Nat.lt_of_succ_lt h), term, dif_pos h]

/-! ## The array after the run -/

/-- The output window's printed index map: block `(t / 64, 0, 0)` — decided over the grid. -/
theorem idx_out : ∀ t : Fin cfg0.N, win0_3.index t (0 : Fin 3) = t.val / 64 ∧ win0_3.index t (1 : Fin 3) = 0
    ∧ win0_3.index t (2 : Fin 3) = 0 :=
  (by decide +kernel : ∀ t : Fin grid0.N, win0_3.index t (0 : Fin 3) = t.val / 64 ∧ win0_3.index t (1 : Fin 3) = 0
    ∧ win0_3.index t (2 : Fin 3) = 0)

/-- The histogram: at `(c', ρ, l)` the sum over the 64 points of core `c'` of their tiles' entry `(ρ, l)`. -/
def hist (c : Dev nD) : S2x32x128.Idx → EReal :=
  fun i => ∑ t : Fin 64, term m c (i 1) (i 2) (64 * (i 0).val + t.val)

/-- What the last point of a core's sweep writes back is that core's slab of the histogram. -/
theorem flushed_eq (c : Dev nD) (t : Fin cfg0.N) (hf : (cfg0.win 3).flush t = true) :
    (dats m 0 c).flushed 3 t = ((cfg0.win 3).blk t).view.read (Elt Ideal) (hist m c) := by
  have h63 : t.val % 64 = 63 := (flush0_3 t).mp hf
  have hN : t.val < 128 := lt_of_lt_of_eq t.isLt N_0
  obtain ⟨e0, e1, e2⟩ := idx_out t
  show (cfg0.win 3).cut (grid0.coords t) ((dats m 0 c).after 3 t) = _
  rw [after0_3]
  funext j
  show outsAt0 m c t.val t.isLt j = hist m c (((cfg0.win 3).blk t).view.emb j)
  have hj0 : (j 0).val = 0 := by have h1 : (j 0).val < 1 := (j 0).isLt; omega
  have hj1 : (j 1).val < 32 := (j 1).isLt
  have hj2 : (j 2).val < 128 := (j 2).isLt
  have ej : (j : S1x32x128.Idx) = ix3 (0 : Fin 1) (⟨(j 1).val, hj1⟩ : Fin 32) (⟨(j 2).val, hj2⟩ : Fin 128) := by
    funext a
    match a with
    | ⟨0, _⟩ => exact Fin.ext hj0
    | ⟨1, _⟩ => exact Fin.ext rfl
    | ⟨2, _⟩ => exact Fin.ext rfl
  have eemb : (((cfg0.win 3).blk t).view.emb j : S2x32x128.Idx)
      = ix3 (⟨t.val / 64, by omega⟩ : Fin 2) (⟨(j 1).val, hj1⟩ : Fin 32) (⟨(j 2).val, hj2⟩ : Fin 128) := by
    funext a; apply Fin.ext
    match a with
    | ⟨0, _⟩ => show win0_3.index t (0 : Fin 3) * 1 + 1 * (j 0).val = t.val / 64; rw [e0, hj0]; omega
    | ⟨1, _⟩ => show win0_3.index t (1 : Fin 3) * 32 + 1 * (j 1).val = (j 1).val; rw [e1]; omega
    | ⟨2, _⟩ => show win0_3.index t (2 : Fin 3) * 128 + 1 * (j 2).val = (j 2).val; rw [e2]; omega
  rw [eemb]
  refine (congrArg (outsAt0 m c t.val t.isLt) ej).trans ?_
  rw [outsAt_eq m c (⟨(j 1).val, hj1⟩ : Fin 32) (⟨(j 2).val, hj2⟩ : Fin 128) t.val t.isLt]
  have ht : t.val = 64 * (t.val / 64) + (64 - 1) := by omega
  refine (congrArg (Cert.LibResetSum.running 64
    (term m c (⟨(j 1).val, hj1⟩ : Fin 32) (⟨(j 2).val, hj2⟩ : Fin 128))) ht).trans ?_
  rw [Cert.LibResetSum.running_last 64 (by decide) _ (t.val / 64)]
  rfl

/-- An index of the array is in point `t`'s block iff each coordinate is in the block's range on its axis. -/
theorem mem_blk (t : Fin cfg0.N) (i : S2x32x128.Idx) :
    i ∈ ((cfg0.win 3).blk t).view.set ↔ ∀ a : Fin 3, win0_3.index t a * S1x32x128.size a ≤ (i a).val
      ∧ (i a).val < win0_3.index t a * S1x32x128.size a + S1x32x128.size a := by
  show i ∈ ((View.whole main_v3).slice (win0_3.rect t)).set ↔ _
  rw [View.set_slice_whole, Rect.mem_set_unit]
  exact Iff.rfl

/-- The two written-back slabs cover the array. -/
theorem cover (c : Dev nD) (i : S2x32x128.Idx) :
    ∃ t : Fin cfg0.N, (cfg0.win 3).flush t = true ∧ i ∈ ((cfg0.win 3).blk t).view.set := by
  have hi0 : (i 0).val < 2 := (i 0).isLt
  have hi1 : (i 1).val < 32 := (i 1).isLt
  have hi2 : (i 2).val < 128 := (i 2).isLt
  have hN : cfg0.N = 128 := N_0
  let t : Fin cfg0.N := ⟨64 * (i 0).val + 63, by omega⟩
  have htv : t.val = 64 * (i 0).val + 63 := rfl
  obtain ⟨e0, e1, e2⟩ := idx_out t
  refine ⟨t, (flush0_3 t).mpr (by omega), ?_⟩
  rw [mem_blk]
  intro a
  match a with
  | ⟨0, _⟩ => show win0_3.index t (0 : Fin 3) * 1 ≤ (i 0).val ∧ (i 0).val < win0_3.index t (0 : Fin 3) * 1 + 1; rw [e0, htv]; omega
  | ⟨1, _⟩ => show win0_3.index t (1 : Fin 3) * 32 ≤ (i 1).val ∧ (i 1).val < win0_3.index t (1 : Fin 3) * 32 + 32; rw [e1]; omega
  | ⟨2, _⟩ => show win0_3.index t (2 : Fin 3) * 128 ≤ (i 2).val ∧ (i 2).val < win0_3.index t (2 : Fin 3) * 128 + 128; rw [e2]; omega

/-- The output array ends holding the histogram. -/
theorem final_hist (c : Dev nD) : (dats m 0 c).arrAt 3 cfg0.N = hist m c :=
  (dats m 0 c).arrAt_eq_of_cover 3 (hist m c) (flushed_eq m c) (cover c)

end Cert.KernelIdeal.KV

end
-- ==== Proof.KTail.lean ====
/-
  The host operations after the kernel, as one function of the histogram array.

  From the [2, 32, 128] array the program adds the two cores' slabs, cuts rows 0..9 (the per-bin counts, lane by lane),
  row 10 (the number of valid entries) and rows 16..25 (the per-bin cross-entropy masses), sums each over the 128
  lanes, and forms `(∑ over the bins of ((T / max cnt 1) / n) · S) / T · 1` with `T = max tot 1` and `n` the number of
  non-empty bins, at least 1.
-/
import proofs.«167816_j4818953306441_2_alg».proof.Proof.Gen.KernelIdeal.Frame
import Idealize.ShloMosaic.Lib.Pipeline.Value
import Idealize.ShloMosaic.Lib.StableHlo.Run
import Idealize.ShloMosaic.Lib.Tactic

noncomputable section

open Idealize.ShloMosaic Idealize.ShloMosaic.TcCoe Idealize.SL.Sem
open Idealize.ShloMosaic.Pipeline (Dat)

namespace Cert.KernelIdeal.KV

open Cert.KernelIdeal Cert.KernelIdeal.Gen

variable {F : FTy → Type} [FloatOps F]

/-- The program's result as a function of the histogram array. -/
def tailFn (H : FVec F S2x32x128 .f32) : FVec F S_ .f32 :=
  let z : FVec F S_ .f32 := constant S_ .f32 0x00000000#32
  let one : FVec F S_ .f32 := constant S_ .f32 0x3F800000#32
  let v4 : FVec F S32x128 .f32 := Host.reduceAdd H z reducesTo_S2x32x128_S32x128_d0 h_S_
  let v6 : FVec F S10 .f32 := Host.reduceAdd (extractStridedSlice S10x128 ![0, 0] v4 slices_S32x128_S10x128_0_0) z reducesTo_S10x128_S10_d1 h_S_
  let v9 : FVec F S_ .f32 := Host.reduceAdd (shapeCast S128 (extractStridedSlice S1x128 ![10, 0] v4 slices_S32x128_S1x128_10_0) shapeCasts_S1x128_S128) z reducesTo_S128_S_d0 h_S_
  let v11 : FVec F S10 .f32 := Host.reduceAdd (extractStridedSlice S10x128 ![16, 0] v4 slices_S32x128_S10x128_16_0) z reducesTo_S10x128_S10_d1 h_S_
  let v12 : FVec F S_ .f32 := maximumf v9 one
  let v17 : FVec F S_ .f32 := maximumf (Host.reduceAdd (uitofp .f32 (cmpf .ogt v6 (broadcastInDim S10 ![] bcast_S_S10 z))) z reducesTo_S10_S_d0 h_S_) one
  let v19 : FVec F S10 .f32 := maximumf v6 (broadcastInDim S10 ![] bcast_S_S10 one)
  let v21 : FVec F S10 .f32 := Host.divf (broadcastInDim S10 ![] bcast_S_S10 v12) v19
  let v23 : FVec F S10 .f32 := Host.divf v21 (broadcastInDim S10 ![] bcast_S_S10 v17)
  let v25 : FVec F S_ .f32 := Host.reduceAdd (mulf v23 v11) z reducesTo_S10_S_d0 h_S_
  mulf (Host.divf v25 v12) one

variable (m : (ℓ : Loc nD τ sig) → Buf (Elt F) ℓ) (ρ : Dev nD → PrngReg)

/-- After the region, the result buffer holds that function of the output array as the region left it. -/
theorem tail_eq (c : Dev nD) :
    Pipeline.afterTail₀ cfgs (dats m) 0 (V0 m) [hostOps1] c main_v27 = tailFn ((dats m 0 c).arrAt 3 cfg0.N) := by
  unfold Pipeline.afterTail₀
  show StableHlo.after hostOps1 _ (Proc.devRef .tc main_v27) = _
  after_results_simp
  have e : Pipeline.withArrays (cfgs 0).spec c (V0 m c) (fun w => (dats m 0 c).arrAt w (cfgs 0).N) (Proc.tc.devRef main_v3)
      = (dats m 0 c).arrAt 3 cfg0.N :=
    Pipeline.withArrays_arr spec0 launch0.win.arr_inj c _ _ 3
  rw [e]
  rfl

end Cert.KernelIdeal.KV

end
-- ==== Proof.KValue.lean ====
/-
  The kernel program's run, read: its result is the host tail of the histogram, and the blocks the grid points load
  are the argument arrays read through the row-major [4194304, 16] → [524288, 128] view.

  Grid point `n = 64 c' + i` loads rows `4096 n … 4096 n + 4095` of the view, so entry `(r, l)` of its block is the
  argument's entry at flat position `(4096 n + r) · 128 + l`, i.e. at row `pos / 16` and column `pos % 16`: the
  element `elt c' i r l`.
-/
import proofs.«167816_j4818953306441_2_alg».proof.Proof.KAcc
import proofs.«167816_j4818953306441_2_alg».proof.Proof.KTail
import proofs.«167816_j4818953306441_2_alg».proof.Proof.GhmSpec
import Idealize.ShloMosaic.Lib.Pipeline.Value
import Idealize.ShloMosaic.Lib.StableHlo.Run
import Idealize.ShloMosaic.Lib.Tactic

noncomputable section

open Idealize.ShloMosaic Idealize.ShloMosaic.TcCoe Idealize.SL.Sem Idealize.ShloMosaic.ValueIdx
open Idealize.ShloMosaic.Pipeline (Dat)
open scoped BigOperators

namespace Cert.KernelIdeal.KV

open Cert.KernelIdeal Cert.KernelIdeal.Gen Cert.Ghm

variable (m : (ℓ : Loc nD τ sig) → Buf (Elt Ideal) ℓ) (ρ : Dev nD → PrngReg)

/-- The run, read: the result buffer ends at the host tail of the histogram, the arguments unchanged. -/
theorem kernel_run : θ_run defs (onTc (τ := τ) (main (F := Ideal))) ⟨m, fun _ => 0, ρ⟩ fun r => ∀ c : Dev nD,
      r.2.mem ((c.tc : Thread nD τ).loc main_v27) = tailFn (F := Ideal) (hist m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v27 (Pipeline.mem_restRefs_of main_v27 (by decide) (by decide))).trans
        ((tail_eq m c).trans (congrArg (tailFn (F := Ideal)) (final_hist m c))),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

/-! ## The input windows' arrays: the row-major view of the arguments -/

theorem V_v0 (c : Dev nD) : (V m c main_v0 : S524288x128.Idx → EReal)
    = shapeCast S524288x128 (m ((c.tc : Thread nD τ).loc main_arg0)) shapeCasts_S4194304x16_S524288x128 := by
  show StableHlo.after hostOps0 (fun b => m (c, b)) (Proc.devRef .tc main_v0) = _
  after_results
  rfl

theorem V_v1 (c : Dev nD) : (V m c main_v1 : S524288x128.Idx → BitVec 32)
    = shapeCast S524288x128 (m ((c.tc : Thread nD τ).loc main_arg1)) shapeCasts_S4194304x16_S524288x128 := by
  show StableHlo.after hostOps0 (fun b => m (c, b)) (Proc.devRef .tc main_v1) = _
  after_results
  rfl

theorem V_v2 (c : Dev nD) : (V m c main_v2 : S524288x128.Idx → EReal)
    = shapeCast S524288x128 (m ((c.tc : Thread nD τ).loc main_arg2)) shapeCasts_S4194304x16_S524288x128 := by
  show StableHlo.after hostOps0 (fun b => m (c, b)) (Proc.devRef .tc main_v2) = _
  after_results
  rfl

/-- The row-major view read at `(R, l)`: the array at the quotient and remainder by 16 of `128 R + l`. -/
theorem view_apply {α : Type} (X : S4194304x16.Idx → α) (R : Fin 524288) (l : Fin 128) :
    shapeCast S524288x128 X shapeCasts_S4194304x16_S524288x128 (ix2 R l)
      = X (ix2 (⟨(R.val * 128 + l.val) / 16, by have := R.isLt; have := l.isLt; omega⟩ : Fin 4194304)
               (⟨(R.val * 128 + l.val) % 16, Nat.mod_lt _ (by decide)⟩ : Fin 16)) :=
  shapeCast_apply X _ _ _ (by
    rw [Shape.rowMajor_val_two, Shape.rowMajor_val_two]
    show (R.val * 128 + l.val) / 16 * 16 + (R.val * 128 + l.val) % 16 = R.val * 128 + l.val
    omega)

/-- The three input windows' printed index maps: block `(t, 0)` — decided over the grid. -/
theorem idx_in : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0 :=
  (by decide +kernel : ∀ t : Fin grid0.N, win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0)

/-- Entry `(r, l)` of the prediction block of point `64 c' + i` is the prediction of element `elt c' i r l`. -/
theorem iblk0_apply (c : Dev nD) (c' : Fin 2) (i : Fin 64) (h : 64 * c'.val + i.val < cfg0.N) (r : Fin 4096) (l : Fin 128) :
    (iblk m c 0 ⟨64 * c'.val + i.val, h⟩ : S4096x128.Idx → EReal) (ix2 r l)
      = m ((c.tc : Thread nD τ).loc main_arg0) (elt c' i r l) := by
  obtain ⟨e0, e1, -, -, -, -⟩ := idx_in ⟨64 * c'.val + i.val, h⟩
  have e0' : win0_0.index ⟨64 * c'.val + i.val, h⟩ (0 : Fin 2) = 64 * c'.val + i.val := e0
  unfold iblk
  rw [View.read_apply]
  show V m c main_v0 _ = _
  rw [V_v0]
  have hc : c'.val < 2 := c'.isLt
  have hi : i.val < 64 := i.isLt
  have hr : r.val < 4096 := r.isLt
  have hemb : (((cfg0.win 0).blk ⟨64 * c'.val + i.val, h⟩).view.emb (ix2 r l) : S524288x128.Idx)
      = ix2 (⟨(c'.val * 64 + i.val) * 4096 + r.val, by omega⟩ : Fin 524288) l := by
    funext a; apply Fin.ext
    match a with
    | ⟨0, _⟩ => show win0_0.index ⟨64 * c'.val + i.val, h⟩ (0 : Fin 2) * 4096 + 1 * r.val = (c'.val * 64 + i.val) * 4096 + r.val; rw [e0']; omega
    | ⟨1, _⟩ => show win0_0.index ⟨64 * c'.val + i.val, h⟩ (1 : Fin 2) * 128 + 1 * l.val = l.val; rw [e1]; omega
  rw [hemb, view_apply]
  rfl

/-- Entry `(r, l)` of the target block of point `64 c' + i` is the target of element `elt c' i r l`. -/
theorem iblk1_apply (c : Dev nD) (c' : Fin 2) (i : Fin 64) (h : 64 * c'.val + i.val < cfg0.N) (r : Fin 4096) (l : Fin 128) :
    (iblk m c 1 ⟨64 * c'.val + i.val, h⟩ : S4096x128.Idx → BitVec 32) (ix2 r l)
      = m ((c.tc : Thread nD τ).loc main_arg1) (elt c' i r l) := by
  obtain ⟨-, -, e0, e1, -, -⟩ := idx_in ⟨64 * c'.val + i.val, h⟩
  have e0' : win0_1.index ⟨64 * c'.val + i.val, h⟩ (0 : Fin 2) = 64 * c'.val + i.val := e0
  unfold iblk
  rw [View.read_apply]
  show V m c main_v1 _ = _
  rw [V_v1]
  have hc : c'.val < 2 := c'.isLt
  have hi : i.val < 64 := i.isLt
  have hr : r.val < 4096 := r.isLt
  have hemb : (((cfg0.win 1).blk ⟨64 * c'.val + i.val, h⟩).view.emb (ix2 r l) : S524288x128.Idx)
      = ix2 (⟨(c'.val * 64 + i.val) * 4096 + r.val, by omega⟩ : Fin 524288) l := by
    funext a; apply Fin.ext
    match a with
    | ⟨0, _⟩ => show win0_1.index ⟨64 * c'.val + i.val, h⟩ (0 : Fin 2) * 4096 + 1 * r.val = (c'.val * 64 + i.val) * 4096 + r.val; rw [e0']; omega
    | ⟨1, _⟩ => show win0_1.index ⟨64 * c'.val + i.val, h⟩ (1 : Fin 2) * 128 + 1 * l.val = l.val; rw [e1]; omega
  rw [hemb, view_apply]
  rfl

/-- Entry `(r, l)` of the label-weight block of point `64 c' + i` is the label-weight of element `elt c' i r l`. -/
theorem iblk2_apply (c : Dev nD) (c' : Fin 2) (i : Fin 64) (h : 64 * c'.val + i.val < cfg0.N) (r : Fin 4096) (l : Fin 128) :
    (iblk m c 2 ⟨64 * c'.val + i.val, h⟩ : S4096x128.Idx → EReal) (ix2 r l)
      = m ((c.tc : Thread nD τ).loc main_arg2) (elt c' i r l) := by
  obtain ⟨-, -, -, -, e0, e1⟩ := idx_in ⟨64 * c'.val + i.val, h⟩
  have e0' : win0_2.index ⟨64 * c'.val + i.val, h⟩ (0 : Fin 2) = 64 * c'.val + i.val := e0
  unfold iblk
  rw [View.read_apply]
  show V m c main_v2 _ = _
  rw [V_v2]
  have hc : c'.val < 2 := c'.isLt
  have hi : i.val < 64 := i.isLt
  have hr : r.val < 4096 := r.isLt
  have hemb : (((cfg0.win 2).blk ⟨64 * c'.val + i.val, h⟩).view.emb (ix2 r l) : S524288x128.Idx)
      = ix2 (⟨(c'.val * 64 + i.val) * 4096 + r.val, by omega⟩ : Fin 524288) l := by
    funext a; apply Fin.ext
    match a with
    | ⟨0, _⟩ => show win0_2.index ⟨64 * c'.val + i.val, h⟩ (0 : Fin 2) * 4096 + 1 * r.val = (c'.val * 64 + i.val) * 4096 + r.val; rw [e0']; omega
    | ⟨1, _⟩ => show win0_2.index ⟨64 * c'.val + i.val, h⟩ (1 : Fin 2) * 128 + 1 * l.val = l.val; rw [e1]; omega
  rw [hemb, view_apply]
  rfl

end Cert.KernelIdeal.KV

end
-- ==== Proof.LibColumnSums.lean ====
/-
  Column sums of a matrix read at an index.

  A float sum of an `[a, b]` matrix along its rows (axis 0) is a vector of length `b` whose entry `q` is, at
  the exact values, the sum over the row coordinate `p` of the matrix's entry `(p, q)`: the reduced index with the
  row coordinate put back is `(p, q)`.
-/
import Idealize.ShloMosaic.Lib.ValueIdx
import Idealize.ShloMosaic.PureOps.Ideal.Laws

noncomputable section

open scoped BigOperators

namespace Cert.LibColumnSums

open Idealize.ShloMosaic Idealize.ShloMosaic.ValueIdx

/-- The source index over column `q` with row `p` inserted is `(p, q)`. -/
theorem lift_ix1 {a b : ℕ} (h : (⟨2, ![a, b]⟩ : Shape).Reduces [0] ⟨1, ![b]⟩) (q : Fin b) (p : Fin a) :
    h.lift (ix1 q) p = ix2 p q := by
  funext ax
  match ax with
  | ⟨0, _⟩ => rfl
  | ⟨1, _⟩ => rfl

/-- A float sum over the rows of an `[a, b]` matrix is, at column `q`, the sum over the row coordinate. -/
theorem multiReduction_add_rows_apply {a b : ℕ} {φ : FTy} (src : FVec Ideal ⟨2, ![a, b]⟩ φ) (acc : BitVec φ.bits)
    (h : (⟨2, ![a, b]⟩ : Shape).Reduces [0] ⟨1, ![b]⟩) (hφ : FKind.Formats φ) (hacc : acc = FKind.add.neutral φ hφ) (q : Fin b) :
    multiReduction .add [0] ⟨1, ![b]⟩ src acc h hφ hacc (ix1 q) = ∑ p : Fin a, src (ix2 p q) :=
  (Ideal.multiReduction_add_single src acc h hφ hacc (ix1 q)).trans
    (Finset.sum_congr rfl fun p _ => congrArg src (lift_ix1 h q p))

end Cert.LibColumnSums

end
-- ==== Proof.KTile.lean ====
/-
  The tile one grid point adds, read at its 21 meaningful rows.

  Row 'b' of the tile (b among 0..9) holds, lane by lane, the number of valid entries of the lane's column whose bin is
  'b'; row '16 + b' their cross-entropy mass; row 10 the number of valid entries of the column. The tile is a sum of 21
  tiles each of which is one row of 128 lanes placed at one row of a zero tile, so at a given row all but one of the 21
  summands vanish; the surviving row is a sum over the 4096 rows of the block, and each entry of the three pointwise
  payloads is the validity number, the bin word and the cross-entropy term of that element.
-/
import proofs.«167816_j4818953306441_2_alg».proof.Proof.KPoint
import proofs.«167816_j4818953306441_2_alg».proof.Proof.GhmElem
import proofs.«167816_j4818953306441_2_alg».proof.Proof.LibColumnSums
import Idealize.ShloMosaic.Lib.ValueLayout
import Idealize.ShloMosaic.Lib.ValueIdx
import Idealize.ShloMosaic.PureOps.Ideal.Laws

noncomputable section

open scoped BigOperators

namespace Cert.KernelIdeal.KV

open Cert.KernelIdeal Cert.KernelIdeal.Gen Cert.Ghm Idealize.ShloMosaic Idealize.ShloMosaic.ValueIdx

/-! ## A placed row at an index -/

/-- The pattern of 0.0 is the extended real 0. -/
theorem scalar_zero : (Scalar.ofBits .f32 0x00000000#32 : Ideal .f32) = 0 := Ideal.ofBits_zero_f32

/-- The row-number tile at '(ρ, l)' is 'ρ'. -/
theorem rowNo_apply (ρ : Fin 32) (l : Fin 128) : rowNo (ix2 ρ l) = BitVec.ofNat 32 ρ.val := by
  unfold rowNo
  rw [iota_single_apply]

/-- Choosing on "equal as 32-bit words" between two numbers below 2^32 is choosing on "equal". -/
theorem select_cmpi_eq {α : Type} (a b : ℕ) (ha : a < 4294967296) (hb : b < 4294967296) (x y : α) :
    Scalar.select (IntOp.cmpi .eq (BitVec.ofNat 32 a) (BitVec.ofNat 32 b)) x y = if a = b then x else y := by
  by_cases h : a = b
  · subst h
    simp [Scalar.select, IntOp.cmpi]
  · have hne : BitVec.ofNat 32 a ≠ BitVec.ofNat 32 b := by
      intro h'
      have := congrArg BitVec.toNat h'
      rw [BitVec.toNat_ofNat, BitVec.toNat_ofNat, Nat.mod_eq_of_lt (by omega), Nat.mod_eq_of_lt (by omega)] at this
      exact h this
    have hf : (BitVec.ofNat 32 a == BitVec.ofNat 32 b) = false := beq_eq_false_iff_ne.mpr hne
    show (if BitVec.ofBool (BitVec.ofNat 32 a == BitVec.ofNat 32 b) = 1 then x else y) = _
    rw [hf, if_neg h]
    rfl

/-- A row placed at row 'j' of a zero tile, read at '(ρ, l)': the row's lane 'l' where 'ρ = j', else 0. -/
theorem placeRow_apply (j : ℕ) (hj : j < 32) (row : FVec Ideal S128 .f32) (ρ : Fin 32) (l : Fin 128) :
    placeRow (F := Ideal) (BitVec.ofNat 32 j) row (ix2 ρ l) = if ρ.val = j then row (ix1 l) else 0 := by
  unfold placeRow
  rw [select_apply]
  show Scalar.select (IntOp.cmpi .eq (rowNo (ix2 ρ l)) (BitVec.ofNat 32 j)) _ _ = _
  rw [rowNo_apply, select_cmpi_eq ρ.val j (by omega) (by omega), broadcastTo_1b_ab_apply, shapeCast_self,
    shapeCast_a_1a_apply, broadcast_apply, scalar_zero]

/-! ## The three kinds of rows at a lane -/

section Rows
variable (v13 : FVec Ideal S4096x128 .f32) (v23 : IVec S4096x128 32) (v33 : FVec Ideal S4096x128 .f32)

theorem binCnt_apply (b : BitVec 32) (l : Fin 128) :
    binCnt v13 v23 b (ix1 l) = ∑ r : Fin 4096, v13 (ix2 r l) * maskB (F := Ideal) v23 b (ix2 r l) := by
  exact Cert.LibColumnSums.multiReduction_add_rows_apply (mulf v13 (maskB v23 b)) _ _ _ _ l

theorem binS_apply (b : BitVec 32) (l : Fin 128) :
    binS v13 v23 v33 b (ix1 l) = ∑ r : Fin 4096, (v13 (ix2 r l) * maskB (F := Ideal) v23 b (ix2 r l)) * v33 (ix2 r l) := by
  exact Cert.LibColumnSums.multiReduction_add_rows_apply (mulf (mulf v13 (maskB v23 b)) v33) _ _ _ _ l

theorem totCol_apply (l : Fin 128) : totCol v13 (ix1 l) = ∑ r : Fin 4096, v13 (ix2 r l) := by
  exact Cert.LibColumnSums.multiReduction_add_rows_apply v13 _ _ _ _ l

end Rows

/-! ## The entries of the three pointwise payloads -/

section Entries
variable (x0 : Vec Ideal S4096x128 .f32) (x1 : Vec Ideal S4096x128 .i32) (x2 : Vec Ideal S4096x128 .f32)

/-- A one-bit word widened to 32 bits and read signed is the bit. -/
theorem toInt_setWidth_bit : ∀ w : BitVec 1, (w.setWidth 32).toInt = (w.toNat : ℤ) := by decide

/-- The validity payload at an entry is the validity number of the entry's label weight. -/
theorem pay5_apply (i : S4096x128.Idx) : k0_pay5 (F := Ideal) x2 i = vOf (vbit (x2 i)) := by
  unfold k0_pay5
  rw [shapeCast_self, scalar_zero]
  show ((((Ideal.cmp .ogt (x2 i) 0).setWidth 32).toInt : ℝ) : EReal) = _
  rw [toInt_setWidth_bit, Int.cast_natCast]
  rfl

/-- The predictions and the targets as the later payloads read them. -/
theorem pay3_eq : k0_pay3 (F := Ideal) x0 = x0 := by
  unfold k0_pay3
  rw [shapeCast_self]

theorem pay4_apply (i : S4096x128.Idx) : k0_pay4 (F := Ideal) x1 i = tF (x1 i) := by
  unfold k0_pay4
  rw [shapeCast_self]
  rfl

/-- The bin payload at an entry is the bin word of the entry. -/
theorem pay6_apply (i : S4096x128.Idx) : k0_pay6 (F := Ideal) x0 x1 i = gbin (x0 i) (x1 i) := by
  unfold k0_pay6
  rw [pay3_eq]
  show IntOp.minsi 9#32 (IntOp.maxsi 0#32 (Ideal.fptosi 32
      (max (Ideal.logistic (x0 i) - k0_pay4 (F := Ideal) x1 i) (-(Ideal.logistic (x0 i) - k0_pay4 (F := Ideal) x1 i))
        * Ideal.ofBits .f32 0x41200000#32))) = _
  rw [pay4_apply]
  rfl

/-- The cross-entropy payload at an entry is the cross-entropy term of the entry. -/
theorem pay7_apply (i : S4096x128.Idx) : k0_pay7 (F := Ideal) x0 x1 i = bce (x0 i) (x1 i) := by
  unfold k0_pay7
  rw [pay3_eq, scalar_zero]
  show (max (x0 i) 0 - x0 i * k0_pay4 (F := Ideal) x1 i)
      + Ideal.log1p (Ideal.exp ((0 : EReal) - max (x0 i) (-(x0 i)))) = _
  rw [pay4_apply, zero_sub]
  rfl

/-- The bin mask at an entry is the 0/1 mask of the entry's bin word. -/
theorem maskB_apply (v23 : IVec S4096x128 32) (b : Fin 10) (i : S4096x128.Idx) :
    maskB (F := Ideal) v23 (BitVec.ofNat 32 b.val) i = mOf (v23 i) b := rfl

end Entries

/-! ## The 21 summands at a row -/

/-- The tile's value at row 'ρ' over abstract rows: the zero tile's 0 plus, in the order of the additions, each placed
    row's contribution 'if ρ is its row then its value else 0'. -/
def rowChain (c s : ℕ → EReal) (t : EReal) (ρ : ℕ) : EReal :=
  0 + (if ρ = 0 then c 0 else 0) + (if ρ = 16 then s 0 else 0)
    + (if ρ = 1 then c 1 else 0) + (if ρ = 17 then s 1 else 0)
    + (if ρ = 2 then c 2 else 0) + (if ρ = 18 then s 2 else 0)
    + (if ρ = 3 then c 3 else 0) + (if ρ = 19 then s 3 else 0)
    + (if ρ = 4 then c 4 else 0) + (if ρ = 20 then s 4 else 0)
    + (if ρ = 5 then c 5 else 0) + (if ρ = 21 then s 5 else 0)
    + (if ρ = 6 then c 6 else 0) + (if ρ = 22 then s 6 else 0)
    + (if ρ = 7 then c 7 else 0) + (if ρ = 23 then s 7 else 0)
    + (if ρ = 8 then c 8 else 0) + (if ρ = 24 then s 8 else 0)
    + (if ρ = 9 then c 9 else 0) + (if ρ = 25 then s 9 else 0)
    + (if ρ = 10 then t else 0)

/-- At row 'b' only the count row of bin 'b' contributes. -/
theorem rowChain_cnt (c s : ℕ → EReal) (t : EReal) (b : Fin 10) : rowChain c s t b.val = c b.val := by
  unfold rowChain
  fin_cases b <;> simp

/-- At row '16 + b' only the mass row of bin 'b' contributes. -/
theorem rowChain_s (c s : ℕ → EReal) (t : EReal) (b : Fin 10) : rowChain c s t (16 + b.val) = s b.val := by
  unfold rowChain
  fin_cases b <;> simp

/-- At row 10 only the total row contributes. -/
theorem rowChain_tot (c s : ℕ → EReal) (t : EReal) : rowChain c s t 10 = t := by
  unfold rowChain
  simp

section Tile
variable (x0 : Vec Ideal S4096x128 .f32) (x1 : Vec Ideal S4096x128 .i32) (x2 : Vec Ideal S4096x128 .f32)

/-- The tile at '(ρ, l)' is that sum over the 21 rows at lane 'l'. -/
theorem deltaTile_apply (ρ : Fin 32) (l : Fin 128) :
    deltaTile (F := Ideal) x0 x1 x2 (ix2 ρ l)
      = rowChain (fun b => binCnt (k0_pay5 (F := Ideal) x2) (k0_pay6 (F := Ideal) x0 x1) (BitVec.ofNat 32 b) (ix1 l))
          (fun b => binS (k0_pay5 (F := Ideal) x2) (k0_pay6 (F := Ideal) x0 x1) (k0_pay7 (F := Ideal) x0 x1) (BitVec.ofNat 32 b) (ix1 l))
          (totCol (k0_pay5 (F := Ideal) x2) (ix1 l)) ρ.val := by
  unfold deltaTile rowChain
  simp only [addf_apply, broadcast_apply, scalar_zero]
  rw [placeRow_apply 0 (by omega), placeRow_apply 16 (by omega), placeRow_apply 1 (by omega), placeRow_apply 17 (by omega),
    placeRow_apply 2 (by omega), placeRow_apply 18 (by omega), placeRow_apply 3 (by omega), placeRow_apply 19 (by omega),
    placeRow_apply 4 (by omega), placeRow_apply 20 (by omega), placeRow_apply 5 (by omega), placeRow_apply 21 (by omega),
    placeRow_apply 6 (by omega), placeRow_apply 22 (by omega), placeRow_apply 7 (by omega), placeRow_apply 23 (by omega),
    placeRow_apply 8 (by omega), placeRow_apply 24 (by omega), placeRow_apply 9 (by omega), placeRow_apply 25 (by omega),
    placeRow_apply 10 (by omega)]

/-- Row 'b': per lane, the number of valid entries of the column whose bin is 'b'. -/
theorem deltaTile_cnt (b : Fin 10) (l : Fin 128) :
    deltaTile (F := Ideal) x0 x1 x2 (ix2 (⟨b.val, by omega⟩ : Fin 32) l)
      = ∑ r : Fin 4096, vOf (vbit (x2 (ix2 r l))) * mOf (gbin (x0 (ix2 r l)) (x1 (ix2 r l))) b := by
  rw [deltaTile_apply]
  show rowChain _ _ _ b.val = _
  rw [rowChain_cnt, binCnt_apply]
  refine Finset.sum_congr rfl fun r _ => ?_
  rw [maskB_apply, pay5_apply, pay6_apply]

/-- Row '16 + b': per lane, the cross-entropy mass of the valid entries of the column whose bin is 'b'. -/
theorem deltaTile_s (b : Fin 10) (l : Fin 128) :
    deltaTile (F := Ideal) x0 x1 x2 (ix2 (⟨16 + b.val, by omega⟩ : Fin 32) l)
      = ∑ r : Fin 4096, (vOf (vbit (x2 (ix2 r l))) * mOf (gbin (x0 (ix2 r l)) (x1 (ix2 r l))) b)
          * bce (x0 (ix2 r l)) (x1 (ix2 r l)) := by
  rw [deltaTile_apply]
  show rowChain _ _ _ (16 + b.val) = _
  rw [rowChain_s, binS_apply]
  refine Finset.sum_congr rfl fun r _ => ?_
  rw [maskB_apply, pay5_apply, pay6_apply, pay7_apply]

/-- Row 10: per lane, the number of valid entries of the column. -/
theorem deltaTile_tot (l : Fin 128) :
    deltaTile (F := Ideal) x0 x1 x2 (ix2 (⟨10, by omega⟩ : Fin 32) l)
      = ∑ r : Fin 4096, vOf (vbit (x2 (ix2 r l))) := by
  rw [deltaTile_apply]
  show rowChain _ _ _ 10 = _
  rw [rowChain_tot, totCol_apply]
  refine Finset.sum_congr rfl fun r _ => ?_
  rw [pay5_apply]

end Tile

end Cert.KernelIdeal.KV

end
-- ==== Proof.GhmLoss.lean ====
/-
  The loss as a function of the three families of totals it is computed from: the number `tot` of valid elements, the
  per-bin counts `cnt` and the per-bin cross-entropy masses `s`:

      (∑ over the bins b of ((T / max (cnt b) 1) / n) · s b) / T,   T = max tot 1,  n = max (number of b with cnt b > 0) 1.

  The bin-by-bin closed form of the loss over a family of elements is this function of the family's totals.
-/
import proofs.«167816_j4818953306441_2_alg».proof.Proof.GhmSpec

noncomputable section

open scoped BigOperators

namespace Cert.Ghm

open Idealize.ShloMosaic

/-- The loss from the totals. -/
def lossOf (tot : EReal) (cnt s : Fin 10 → EReal) : EReal :=
  Ideal.div (∑ b : Fin 10, Ideal.div (Ideal.div (max tot 1) (max (cnt b) 1)) (nOf cnt) * s b) (max tot 1)

theorem kLoss_eq_lossOf {ι : Type*} [Fintype ι] (vb : ι → BitVec 1) (k : ι → BitVec 32) (β : ι → EReal) :
    kLoss vb k β = lossOf (totOf vb) (cntK vb k) (sK vb k β) := rfl

end Cert.Ghm

end
-- ==== Proof.KTailRead.lean ====
/-
  The host operations after the kernel, read entry by entry at the exact reading of floats (extended reals).

  The program adds the two slabs of the [2, 32, 128] array, so entry (ρ, l) of the [32, 128] sum is the sum over the slab
  coordinate c' of the entries (c', ρ, l). Rows 0..9, row 10 and rows 16..25 of that sum are then added over the 128 lanes:
  bin b's count is the double sum over (l, c') of the entries (c', b, l), the number of valid entries that of the entries
  (c', 10, l), and bin b's cross-entropy mass that of the entries (c', 16 + b, l). What the program forms from these three
  families of totals, ((∑ over the bins of ((T / max cnt 1) / n) · S) / T) · 1 with T = max tot 1 and n the number of
  non-empty bins, at least 1, is the loss as a function of the totals.

  One lemma per operation read at an index (each host sum is its initial value 0 plus a finite sum; a slice reads the row
  moved by its offset; a broadcast scalar reads the scalar), then the whole chain.
-/
import proofs.«167816_j4818953306441_2_alg».proof.Proof.KTail
import proofs.«167816_j4818953306441_2_alg».proof.Proof.GhmLoss
import Idealize.ShloMosaic.Lib.ValueLayout
import Idealize.ShloMosaic.Lib.ValueIdx
import Idealize.ShloMosaic.PureOps.Ideal.Laws

noncomputable section

open scoped BigOperators

namespace Cert.KernelIdeal.KV

open Cert.KernelIdeal Cert.KernelIdeal.Gen Cert.Ghm Idealize.ShloMosaic Idealize.ShloMosaic.ValueIdx

/-- The 32-bit pattern of the float 1.0 is the extended real 1. -/
theorem ofBits_one_f32 : Ideal.ofBits .f32 0x3F800000#32 = 1 := by
  simp [Ideal.ofBits, Ideal.ieee, -EReal.coe_mul]; norm_num

/-- A rank-1 index set is its one coordinate's range … -/
def idxEquiv1 {n : Nat} : (⟨1, ![n]⟩ : Shape).Idx ≃ Fin n where
  toFun i := i 0
  invFun a := ix1 a
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]; rfl

/-- Over the index (ρ, l) of the [32, 128] array, the index of the [2, 32, 128] array with slab coordinate c' is (c', ρ, l). -/
theorem lift_d0_3 (h : S2x32x128.Reduces [0] S32x128) (ρ : Fin 32) (l : Fin 128) (c' : Fin 2) :
    h.lift (ix2 ρ l) c' = ix3 c' ρ l := by
  funext a; match a with | ⟨0,_⟩ => rfl | ⟨1,_⟩ => rfl | ⟨2,_⟩ => rfl

/-- The sum over the slabs, at (ρ, l): the two slabs' entries there added. -/
theorem v4_apply (H : S2x32x128.Idx → EReal) (ρ : Fin 32) (l : Fin 128) :
    Host.reduceAdd (F := Ideal) (φ := .f32) H (constant (F := Ideal) S_ .f32 0x00000000#32) reducesTo_S2x32x128_S32x128_d0 h_S_ (ix2 ρ l)
      = ∑ c' : Fin 2, H (ix3 c' ρ l) := by
  unfold Host.reduceAdd
  rw [Ideal.hostReduceAdd_def, Ideal.hostReduceAdd_single _ (by decide : S2x32x128.Reduces [0] S32x128), constant_apply, Ideal.ofBits_zero_f32, zero_add]
  exact Finset.sum_congr rfl fun c' _ => congrArg H (lift_d0_3 _ ρ l c')

/-- Over the index b of the [10] array, the index of the [10, 128] array with lane l is (b, l). -/
theorem lift_d1_2 (h : S10x128.Reduces [1] S10) (b : Fin 10) (l : Fin 128) :
    h.lift (ix1 b) l = ix2 b l := by
  funext a; match a with | ⟨0,_⟩ => rfl | ⟨1,_⟩ => rfl

/-- Ten rows cut from row o of a [32, 128] array and summed over the lanes: at b, the lane sum of row o + b. -/
theorem rows_apply (o : Nat) (ho : o + 10 ≤ 32) (X : S32x128.Idx → EReal) (hs : S32x128.Slices ![o, 0] S10x128) (b : Fin 10) :
    Host.reduceAdd (F := Ideal) (φ := .f32) (extractStridedSlice S10x128 ![o, 0] X hs) (constant (F := Ideal) S_ .f32 0x00000000#32) reducesTo_S10x128_S10_d1 h_S_ (ix1 b)
      = ∑ l : Fin 128, X (ix2 (⟨o + b.val, by omega⟩ : Fin 32) l) := by
  unfold Host.reduceAdd
  rw [Ideal.hostReduceAdd_def, Ideal.hostReduceAdd_single _ (by decide : S10x128.Reduces [1] S10), constant_apply, Ideal.ofBits_zero_f32, zero_add]
  refine Finset.sum_congr rfl fun l _ => ?_
  exact (congrArg (extractStridedSlice S10x128 ![o, 0] X hs) (lift_d1_2 _ b l)).trans
    (slice2_axis0_apply o X hs b l (⟨o + b.val, by omega⟩ : Fin 32) rfl)

/-- The same from row 0, the row written b. -/
theorem rows0_apply (X : S32x128.Idx → EReal) (b : Fin 10) :
    Host.reduceAdd (F := Ideal) (φ := .f32) (extractStridedSlice S10x128 ![0, 0] X slices_S32x128_S10x128_0_0) (constant (F := Ideal) S_ .f32 0x00000000#32) reducesTo_S10x128_S10_d1 h_S_ (ix1 b)
      = ∑ l : Fin 128, X (ix2 (⟨b.val, by omega⟩ : Fin 32) l) := by
  rw [rows_apply 0 (by omega)]
  exact Finset.sum_congr rfl fun l _ => congrArg X (congrArg (fun r => ix2 r l) (Fin.ext (Nat.zero_add _)))

/-- The sum of every entry of a [128] array. -/
theorem sum128_apply (x : S128.Idx → EReal) (i : S_.Idx) :
    Host.reduceAdd (F := Ideal) (φ := .f32) x (constant (F := Ideal) S_ .f32 0x00000000#32) reducesTo_S128_S_d0 h_S_ i
      = ∑ l : Fin 128, x (ix1 l) := by
  unfold Host.reduceAdd
  rw [Ideal.hostReduceAdd_def, Ideal.hostReduceAdd_total _ (fun b => b.elim0), constant_apply, Ideal.ofBits_zero_f32, zero_add]
  exact sum_idx1 x

/-- The sum of every entry of a [10] array. -/
theorem sum10_apply (x : S10.Idx → EReal) (i : S_.Idx) :
    Host.reduceAdd (F := Ideal) (φ := .f32) x (constant (F := Ideal) S_ .f32 0x00000000#32) reducesTo_S10_S_d0 h_S_ i
      = ∑ b : Fin 10, x (ix1 b) := by
  unfold Host.reduceAdd
  rw [Ideal.hostReduceAdd_def, Ideal.hostReduceAdd_total _ (fun b => b.elim0), constant_apply, Ideal.ofBits_zero_f32, zero_add]
  exact sum_idx1 x

/-- Row 10 of a [32, 128] array as a [128] array, at lane l. -/
theorem row10_apply (X : S32x128.Idx → EReal) (l : Fin 128) :
    shapeCast S128 (extractStridedSlice S1x128 ![10, 0] X slices_S32x128_S1x128_10_0) shapeCasts_S1x128_S128 (ix1 l)
      = X (ix2 (⟨10, by omega⟩ : Fin 32) l) := by
  rw [shapeCast_1a_a_apply]
  exact slice2_axis0_apply 10 X slices_S32x128_S1x128_10_0 (0 : Fin 1) l _ rfl

/-- A scalar broadcast to [10] reads the scalar everywhere. -/
theorem bcast10_apply {α : Type} (dims : Fin S_.rank → Fin S10.rank) (h : S_.BroadcastsInDim S10 dims) (x : S_.Idx → α)
    (j : S10.Idx) : broadcastInDim S10 dims h x j = x ix0 :=
  broadcastInDim_apply dims h x j ix0 (fun a => a.elim0)

/-- The host's quotient at an index is the quotient of the entries. -/
theorem hostDivf_apply {s : Shape} {φ : FTy} (a b : FVec Ideal s φ) (i : s.Idx) :
    Host.divf a b i = Ideal.div (a i) (b i) := rfl

/-- A one-bit word converted to a float is the number 0 or 1 it encodes. -/
theorem uitofp1_apply {s : Shape} (x : IVec s 1) (i : s.Idx) :
    (uitofp .f32 x : FVec Ideal s .f32) i = vOf (x i) := rfl

/-- A comparison at an index, at the exact reading, compares the entries. -/
theorem cmpf_ideal_apply {s : Shape} {φ : FTy} (p : CmpFPredicate) (a b : FVec Ideal s φ) (i : s.Idx) :
    cmpf p a b i = Ideal.cmp p (a i) (b i) := rfl

/-- The program's result from the histogram array: the loss from the totals, each total a double sum over the lanes and the
    two slabs of one row of the array. -/
theorem tailFn_apply (H : S2x32x128.Idx → EReal) (i : S_.Idx) :
    tailFn (F := Ideal) H i
      = lossOf (∑ l : Fin 128, ∑ c' : Fin 2, H (ix3 c' (⟨10, by omega⟩ : Fin 32) l))
          (fun b : Fin 10 => ∑ l : Fin 128, ∑ c' : Fin 2, H (ix3 c' (⟨b.val, by omega⟩ : Fin 32) l))
          (fun b : Fin 10 => ∑ l : Fin 128, ∑ c' : Fin 2, H (ix3 c' (⟨16 + b.val, by omega⟩ : Fin 32) l)) := by
  unfold tailFn lossOf nOf
  dsimp only
  simp only [mulf_apply, hostDivf_apply, maximumf_apply, constant_apply, ofBits_one_f32, Ideal.ofBits_zero_f32, mul_one,
    sum10_apply, sum128_apply, row10_apply, rows0_apply, rows_apply 16 (by omega), bcast10_apply, uitofp1_apply,
    cmpf_ideal_apply, v4_apply]

end Cert.KernelIdeal.KV

end
-- ==== Proof.KBridge.lean ====
/-
  The kernel program's result is the bin-by-bin closed form of the loss over the argument arrays.

  The host tail reads three families of totals off the histogram: rows 0..9, row 10 and rows 16..25, each summed over
  the 128 lanes and the two cores. Entry `(c', ρ, l)` of the histogram is the sum over the 64 points `i` of core `c'` of the
  tile's entry `(ρ, l)`, which is a sum over the 4096 rows `r` of the point's block of a function of the block's entry
  `(r, l)`, i.e. of the element `elt c' i r l` of the argument arrays. The four nested sums enumerate every element once,
  so each total is the corresponding sum over all elements.
-/
import proofs.«167816_j4818953306441_2_alg».proof.Proof.KValue
import proofs.«167816_j4818953306441_2_alg».proof.Proof.KTile
import proofs.«167816_j4818953306441_2_alg».proof.Proof.KTailRead
import proofs.«167816_j4818953306441_2_alg».proof.Proof.GhmIndex
import proofs.«167816_j4818953306441_2_alg».proof.Proof.GhmLoss
import proofs.«167816_j4818953306441_2_alg».proof.Proof.GhmElem

noncomputable section

open Idealize.ShloMosaic Idealize.ShloMosaic.TcCoe Idealize.SL.Sem Idealize.ShloMosaic.ValueIdx
open scoped BigOperators

namespace Cert.KernelIdeal.KV

open Cert.KernelIdeal Cert.KernelIdeal.Gen Cert.Ghm

variable (m : (ℓ : Loc nD τ sig) → Buf (Elt Ideal) ℓ)

/-- A row of the histogram summed over lanes and cores is the sum over all elements, whenever the tile's entry in that
    row is the sum over the block's rows of a function `G` of the three block entries. -/
theorem hist_row_sum (c : Dev nD) (ρ : Fin 32) (G : EReal → BitVec 32 → EReal → EReal)
    (hG : ∀ (x0 : Vec Ideal S4096x128 .f32) (x1 : Vec Ideal S4096x128 .i32) (x2 : Vec Ideal S4096x128 .f32) (l : Fin 128),
      deltaTile (F := Ideal) x0 x1 x2 (ix2 ρ l) = ∑ r : Fin 4096, G (x0 (ix2 r l)) (x1 (ix2 r l)) (x2 (ix2 r l))) :
    ∑ l : Fin 128, ∑ c' : Fin 2, hist m c (ix3 c' ρ l)
      = ∑ e : SE.Idx, G (m ((c.tc : Thread nD τ).loc main_arg0) e) (m ((c.tc : Thread nD τ).loc main_arg1) e)
          (m ((c.tc : Thread nD τ).loc main_arg2) e) := by
  rw [← sum_elt (fun e => G (m ((c.tc : Thread nD τ).loc main_arg0) e) (m ((c.tc : Thread nD τ).loc main_arg1) e)
          (m ((c.tc : Thread nD τ).loc main_arg2) e))]
  refine Finset.sum_congr rfl fun l _ => Finset.sum_congr rfl fun c' _ => ?_
  show ∑ t : Fin 64, term m c ρ l (64 * c'.val + t.val) = _
  refine Finset.sum_congr rfl fun t _ => ?_
  have h : 64 * c'.val + t.val < cfg0.N := by
    have hc : c'.val < 2 := c'.isLt
    have ht : t.val < 64 := t.isLt
    have hN : cfg0.N = 128 := N_0
    omega
  rw [term, dif_pos h]
  refine (hG (iblk m c 0 ⟨64 * c'.val + t.val, h⟩) (iblk m c 1 ⟨64 * c'.val + t.val, h⟩) (iblk m c 2 ⟨64 * c'.val + t.val, h⟩) l).trans ?_
  refine Finset.sum_congr rfl fun r _ => ?_
  rw [iblk0_apply m c c' t h r l, iblk1_apply m c c' t h r l, iblk2_apply m c c' t h r l]

/-- The kernel program's result, as the bin-by-bin closed form over the argument arrays. -/
theorem kernel_value (c : Dev nD) (i : S_.Idx) :
    tailFn (F := Ideal) (hist m c) i
      = kLoss (fun e : SE.Idx => vbit (m ((c.tc : Thread nD τ).loc main_arg2) e))
          (fun e : SE.Idx => gbin (m ((c.tc : Thread nD τ).loc main_arg0) e) (m ((c.tc : Thread nD τ).loc main_arg1) e))
          (fun e : SE.Idx => bce (m ((c.tc : Thread nD τ).loc main_arg0) e) (m ((c.tc : Thread nD τ).loc main_arg1) e)) := by
  rw [tailFn_apply, kLoss_eq_lossOf]
  have etot := hist_row_sum m c (⟨10, by omega⟩ : Fin 32) (fun _ _ w => vOf (vbit w))
    (fun x0 x1 x2 l => deltaTile_tot x0 x1 x2 l)
  have ecnt : ∀ b : Fin 10, _ := fun b => hist_row_sum m c (⟨b.val, by omega⟩ : Fin 32)
    (fun p t w => vOf (vbit w) * mOf (gbin p t) b) (fun x0 x1 x2 l => deltaTile_cnt x0 x1 x2 b l)
  have es : ∀ b : Fin 10, _ := fun b => hist_row_sum m c (⟨16 + b.val, by omega⟩ : Fin 32)
    (fun p t w => (vOf (vbit w) * mOf (gbin p t) b) * bce p t) (fun x0 x1 x2 l => deltaTile_s x0 x1 x2 b l)
  rw [etot, funext ecnt, funext es]
  rfl

end Cert.KernelIdeal.KV

end
-- ==== Proof.GhmLaw.lean ====
/-
  The two closed forms of the gradient-harmonized loss agree.

  Every bin word is one of 0..9, so the 0/1 mask "the bin word is b" is the indicator of "the bin of the element is b",
  the wrapped and clamped table index is that bin, and the two ways of counting the valid elements of a bin agree.
  Counts, the capped total, the number of non-empty bins and hence every weight are then real numbers (a division is by
  a real number at least 1), and so is every cross-entropy term by hypothesis; for real numbers the sum over the bins of
  weight times the bin's mass is, by distributing and exchanging the two finite sums, the sum over the elements of the
  weight of the element's own bin times its term. On the extended reals multiplication does not distribute over sums in
  general, which is why every factor is first shown to be a real number and the identity is proved in the reals.
-/
import proofs.«167816_j4818953306441_2_alg».proof.Proof.GhmSpec

noncomputable section

open scoped BigOperators

namespace Cert.Ghm

open Idealize.ShloMosaic

/-! ## Extended reals that are real numbers -/

/-- The extended real is a real number. -/
def IsReal (x : EReal) : Prop := ∃ r : ℝ, x = (r : EReal)

theorem isReal_coe (r : ℝ) : IsReal (r : EReal) := ⟨r, rfl⟩

theorem isReal_zero : IsReal 0 := ⟨0, EReal.coe_zero.symm⟩

theorem isReal_one : IsReal 1 := ⟨1, EReal.coe_one.symm⟩

theorem IsReal.add {x y : EReal} (hx : IsReal x) (hy : IsReal y) : IsReal (x + y) := by
  obtain ⟨a, rfl⟩ := hx
  obtain ⟨b, rfl⟩ := hy
  exact ⟨a + b, (EReal.coe_add a b).symm⟩

theorem IsReal.mul {x y : EReal} (hx : IsReal x) (hy : IsReal y) : IsReal (x * y) := by
  obtain ⟨a, rfl⟩ := hx
  obtain ⟨b, rfl⟩ := hy
  exact ⟨a * b, (EReal.coe_mul a b).symm⟩

theorem IsReal.max {x y : EReal} (hx : IsReal x) (hy : IsReal y) : IsReal (max x y) := by
  rcases max_choice x y with h | h <;> rw [h] <;> assumption

/-- A finite sum of real numbers is a real number. -/
theorem IsReal.sum {α : Type*} (s : Finset α) (f : α → EReal) (h : ∀ i ∈ s, IsReal (f i)) :
    IsReal (∑ i ∈ s, f i) := by
  classical
  induction s using Finset.induction_on with
  | empty => rw [Finset.sum_empty]; exact isReal_zero
  | insert a s ha ih =>
    rw [Finset.sum_insert ha]
    exact (h a (Finset.mem_insert_self a s)).add (ih fun i hi => h i (Finset.mem_insert_of_mem hi))

/-- The coercion of a finite sum of real numbers is the sum of the coercions. -/
theorem coe_sum {α : Type*} (s : Finset α) (f : α → ℝ) :
    ((∑ i ∈ s, f i : ℝ) : EReal) = ∑ i ∈ s, (f i : EReal) := by
  classical
  induction s using Finset.induction_on with
  | empty => rw [Finset.sum_empty, Finset.sum_empty, EReal.coe_zero]
  | insert a s ha ih => rw [Finset.sum_insert ha, Finset.sum_insert ha, EReal.coe_add, ih]

/-- Division by a real number at least 1 is the product with its reciprocal: a real number. -/
theorem IsReal.div {x y : EReal} (hx : IsReal x) (hy : IsReal y) (h1 : 1 ≤ y) : IsReal (Ideal.div x y) := by
  obtain ⟨a, rfl⟩ := hx
  obtain ⟨b, rfl⟩ := hy
  have hb : b ≠ 0 := by
    have : (1 : ℝ) ≤ b := by exact_mod_cast h1
    intro h0
    rw [h0] at this
    exact absurd this (by norm_num)
  rw [Ideal.div_coe hb]
  exact (isReal_coe a).mul (isReal_coe _)

/-- Zero divided by a real number at least 1 is zero. -/
theorem div_zero_left {y : EReal} (hy : IsReal y) (h1 : 1 ≤ y) : Ideal.div 0 y = 0 := by
  obtain ⟨b, rfl⟩ := hy
  have hb : b ≠ 0 := by
    have : (1 : ℝ) ≤ b := by exact_mod_cast h1
    intro h0
    rw [h0] at this
    exact absurd this (by norm_num)
  rw [Ideal.div_coe hb, zero_mul]

/-! ## One element: the validity number, the bin mask, the table index -/

/-- A one-bit word read as a natural number is 1 exactly when the bit is set. -/
theorem toNat_bit : ∀ x : BitVec 1, x.toNat = if x = 1 then 1 else 0 := by decide

/-- The validity number is the indicator of "the bit is set". -/
theorem vOf_eq (x : BitVec 1) : vOf x = (((if x = 1 then 1 else 0 : ℝ)) : EReal) := by
  unfold vOf
  rw [toNat_bit x]
  split_ifs <;> simp

theorem isReal_vOf (x : BitVec 1) : IsReal (vOf x) := ⟨_, rfl⟩

/-- Choosing on a one-bit condition. -/
theorem select_eq {α : Type} (c : BitVec 1) (a b : α) : Scalar.select c a b = if c = 1 then a else b := rfl

/-- For bin words among 0..9, "equal as 32-bit words", widened and read signed, is the indicator of "equal bins". -/
theorem cmp_ofNat : ∀ b' b : Fin 10,
    ((IntOp.cmpi .eq (BitVec.ofNat 32 b'.val) (BitVec.ofNat 32 b.val)).setWidth 32).toInt = if b' = b then 1 else 0 := by
  decide

/-- The mask of a bin word among 0..9 is the indicator of its bin. -/
theorem mOf_ofNat (b' b : Fin 10) : mOf (BitVec.ofNat 32 b'.val) b = (((if b' = b then 1 else 0 : ℝ)) : EReal) := by
  unfold mOf
  rw [cmp_ofNat b' b]
  split_ifs <;> simp

/-- A bin word among 0..9 read signed is its bin. -/
theorem toInt_ofNat : ∀ b' : Fin 10, (BitVec.ofNat 32 b'.val).toInt = (b'.val : ℤ) := by decide

/-- A bin word among 0..9 is not negative, so wrapping leaves it, and clamping into 0..9 gives its bin. -/
theorem clamp_wrap_ofNat : ∀ b' : Fin 10, clamp10 (wrap10 (BitVec.ofNat 32 b'.val)) = b' := by decide

/-- "the bin word read signed is b" says "the bin is b". -/
theorem toInt_ofNat_eq_iff (b' b : Fin 10) : (BitVec.ofNat 32 b'.val).toInt = (b.val : ℤ) ↔ b' = b := by
  rw [toInt_ofNat b']
  constructor
  · intro h
    exact Fin.ext (by omega)
  · rintro rfl
    rfl

/-! ## The counts, the capped total and the number of non-empty bins -/

section Counts
variable {ι : Type*} [Fintype ι] (vb : ι → BitVec 1) (k : ι → BitVec 32)

/-- Counting the valid elements of a bin through the masks is counting over the elements of that bin. -/
theorem cntK_eq_cntR (bin : ι → Fin 10) (hbin : ∀ e, k e = BitVec.ofNat 32 (bin e).val) : cntK vb k = cntR vb k := by
  funext b
  unfold cntK cntR
  rw [Finset.sum_filter]
  refine Finset.sum_congr rfl fun e _ => ?_
  rw [hbin e, mOf_ofNat]
  by_cases h : bin e = b
  · rw [if_pos h, if_pos ((toInt_ofNat_eq_iff (bin e) b).mpr h), EReal.coe_one, mul_one]
  · rw [if_neg h, if_neg (fun h' => h ((toInt_ofNat_eq_iff (bin e) b).mp h')), EReal.coe_zero, mul_zero]

theorem isReal_totOf : IsReal (totOf vb) := IsReal.sum _ _ fun e _ => isReal_vOf (vb e)

theorem isReal_capT : IsReal (capT vb) := (isReal_totOf vb).max isReal_one

theorem one_le_capT : 1 ≤ capT vb := le_max_right _ _

theorem isReal_cntR (b : Fin 10) : IsReal (cntR vb k b) := IsReal.sum _ _ fun e _ => isReal_vOf (vb e)

theorem isReal_nOf (cnt : Fin 10 → EReal) : IsReal (nOf cnt) :=
  (IsReal.sum _ _ fun b _ => isReal_vOf (Ideal.cmp .ogt (cnt b) 0)).max isReal_one

theorem one_le_nOf (cnt : Fin 10 → EReal) : 1 ≤ nOf cnt := le_max_right _ _

/-- The weight of a bin divided by the number of non-empty bins is a real number. -/
theorem isReal_weight (b : Fin 10) :
    IsReal (Ideal.div (Ideal.div (capT vb) (max (cntR vb k b) 1)) (nOf (cntR vb k))) :=
  ((isReal_capT vb).div ((isReal_cntR vb k b).max isReal_one) (le_max_right _ _)).div (isReal_nOf _) (one_le_nOf _)

end Counts

/-! ## The regrouping, in the real numbers -/

/-- With real weights 'a', the sum over the bins of the weight times the bin's mass is the sum over the elements of the
    weight of the element's own bin (0 where the element is not valid) times its term: distribute, exchange the two
    finite sums, and in the inner sum over the bins only the element's own bin contributes. -/
theorem regroup {ι : Type*} [Fintype ι] (a : Fin 10 → ℝ) (bin : ι → Fin 10) (v : ι → Prop) [DecidablePred v]
    (β : ι → ℝ) :
    ∑ b : Fin 10, a b * ∑ e, ((if v e then (1 : ℝ) else 0) * (if bin e = b then (1 : ℝ) else 0)) * β e
      = ∑ e, (if v e then a (bin e) else 0) * β e := by
  simp only [Finset.mul_sum]
  rw [Finset.sum_comm]
  refine Finset.sum_congr rfl fun e _ => ?_
  rw [Finset.sum_eq_single (bin e)]
  · rw [if_pos rfl]
    split_ifs <;> ring
  · intro b _ hb
    rw [if_neg (Ne.symm hb)]
    ring
  · intro h
    exact absurd (Finset.mem_univ _) h

/-! ## The two closed forms agree -/

theorem kLoss_eq_rLoss {ι : Type*} [Fintype ι] (vb : ι → BitVec 1) (k : ι → BitVec 32) (β : ι → EReal)
    (hk : ∀ e, ∃ b : Fin 10, k e = BitVec.ofNat 32 b.val)
    (hβ : ∀ e, ∃ r : ℝ, β e = (r : EReal)) :
    kLoss vb k β = rLoss vb k β := by
  choose bin hbin using hk
  choose B hB using hβ
  choose A hA using isReal_weight vb k
  unfold kLoss rLoss
  rw [cntK_eq_cntR vb k bin hbin]
  congr 1
  -- the bin-by-bin numerator, as the coercion of a real number
  have hL : ∑ b : Fin 10, Ideal.div (Ideal.div (capT vb) (max (cntR vb k b) 1)) (nOf (cntR vb k)) * sK vb k β b
      = ((∑ b : Fin 10, A b * ∑ e, ((if vb e = 1 then (1 : ℝ) else 0) * (if bin e = b then (1 : ℝ) else 0)) * B e : ℝ)
          : EReal) := by
    rw [coe_sum]
    refine Finset.sum_congr rfl fun b _ => ?_
    rw [hA b, EReal.coe_mul, coe_sum]
    congr 1
    unfold sK
    refine Finset.sum_congr rfl fun e _ => ?_
    rw [hbin e, mOf_ofNat, vOf_eq, hB e, EReal.coe_mul, EReal.coe_mul]
  -- the element-by-element numerator, likewise
  have hR : ∑ e, Ideal.div (selR vb k e) (nOf (cntR vb k)) * β e
      = ((∑ e, (if vb e = 1 then A (bin e) else 0) * B e : ℝ) : EReal) := by
    rw [coe_sum]
    refine Finset.sum_congr rfl fun e _ => ?_
    rw [EReal.coe_mul, hB e]
    congr 1
    unfold selR
    rw [select_eq, hbin e, clamp_wrap_ofNat]
    by_cases h : vb e = 1
    · rw [if_pos h, if_pos h, hA]
    · rw [if_neg h, if_neg h, div_zero_left (isReal_nOf _) (one_le_nOf _), EReal.coe_zero]
  rw [hL, hR, regroup]

end Cert.Ghm

end
-- ==== Proof.GhmElemFacts.lean ====
/-
  Two facts about one element of the loss, used when the two closed forms are compared.

  * The bin word is one of the ten words 0, …, 9: a signed clip of any 32-bit word into [0, 9] is read back from its
    unsigned value, which is at most 9.
  * At a real prediction the cross-entropy term is a real number: max p 0, p · t and their difference are real, the
    exponential of a real is a positive real, so 1 + exp (-|p|) is a positive real and its logarithm is real.
-/
import proofs.«167816_j4818953306441_2_alg».proof.Proof.GhmElem

noncomputable section

namespace Cert.Ghm

open Idealize.ShloMosaic

/-- A signed clip into [0, 9] is one of the ten words 0, …, 9. -/
theorem clip_range (x : BitVec 32) :
    ∃ b : Fin 10, IntOp.minsi 9#32 (IntOp.maxsi 0#32 x) = BitVec.ofNat 32 b.val := by
  unfold IntOp.minsi IntOp.maxsi
  by_cases h1 : x.slt 0#32 = true
  · rw [if_pos h1]
    exact ⟨⟨0, by omega⟩, by rw [if_neg (by decide)]⟩
  · rw [if_neg h1]
    by_cases h2 : (9#32).slt x = true
    · rw [if_pos h2]
      exact ⟨⟨9, by omega⟩, rfl⟩
    · rw [if_neg h2]
      rw [BitVec.slt_iff_toInt_lt] at h1 h2
      have hc := BitVec.toInt_eq_toNat_cond x
      have h0 : (0#32 : BitVec 32).toInt = 0 := by decide
      have h9 : (9#32 : BitVec 32).toInt = 9 := by decide
      rw [h0] at h1
      rw [h9] at h2
      have hlt : x.toNat < 10 := by
        split at hc <;> omega
      refine ⟨⟨x.toNat, hlt⟩, ?_⟩
      apply BitVec.eq_of_toNat_eq
      rw [BitVec.toNat_ofNat]
      show x.toNat = x.toNat % 2 ^ 32
      omega

/-- The bin word is one of the ten words 0, …, 9. -/
theorem gbin_range (p : EReal) (t : BitVec 32) : ∃ b : Fin 10, gbin p t = BitVec.ofNat 32 b.val :=
  clip_range _

/-- The embedding of the reals in the extended reals preserves the maximum. -/
theorem coe_max_real (x y : ℝ) : ((max x y : ℝ) : EReal) = max (x : EReal) (y : EReal) :=
  EReal.coe_strictMono.monotone.map_max

/-- At a real prediction the cross-entropy term is a real number. -/
theorem bce_real (p : ℝ) (t : BitVec 32) : ∃ r : ℝ, bce (p : EReal) t = (r : EReal) := by
  refine ⟨(max p 0 - p * (t.toInt : ℝ)) + Real.log (1 + Real.exp (-(max p (-p)))), ?_⟩
  have hpos : ¬ (1 + Real.exp (-(max p (-p))) ≤ 0) := by
    have := Real.exp_pos (-(max p (-p)))
    linarith
  unfold bce tF Ideal.log1p
  rw [← EReal.coe_zero, ← coe_max_real, ← EReal.coe_mul, ← EReal.coe_sub, ← EReal.coe_neg, ← coe_max_real,
    ← EReal.coe_neg, Ideal.exp_coe, ← EReal.coe_one, ← EReal.coe_add, Ideal.log_coe, if_neg hpos, ← EReal.coe_add]

end Cert.Ghm

end
-- ==== Proof.Finite.lean ====
/-
  What the precondition says of the predictions: every one of them is a real number.

  The precondition is the conjunction of two "all" tests, the first of which is: at every element the absolute value of
  the prediction is below +∞. A conjunction of two bits is 1 only when both are; an "and" over all elements that came out
  1 met a 1 at every element; the test at an element is 'max x (-x) < ⊤' on the extended reals, which fails at both
  infinities (the absolute value of each is ⊤) and so leaves the real numbers.
-/
import proofs.«167816_j4818953306441_2_alg».proof.Pre_finite_inputs
import proofs.«167816_j4818953306441_2_alg».proof.Proof.Gen.Pre_finite_inputs
import proofs.«167816_j4818953306441_2_alg».proof.Proof.GhmSpec
import Idealize.ShloMosaic.Lib.ReduceAll
import Idealize.ShloMosaic.Lib.Affine
import Idealize.ShloMosaic.PureOps.Ideal.Laws

noncomputable section

namespace Cert.Ghm

open Idealize.ShloMosaic

/-- The scalar shape has one index. -/
instance : Subsingleton Cert.Pre_finite_inputs.S_.Idx := ⟨fun _ _ => funext fun d => d.elim0⟩

/-- The pattern of +∞ is the top of the extended reals. -/
theorem ofBits_inf_f32 : Ideal.ofBits .f32 0x7F800000#32 = ⊤ := by simp [Ideal.ofBits, Ideal.ieee]

/-- A truth value as a bit is 1 exactly when it is true. -/
theorem ofBool_eq_one_iff (c : Bool) : BitVec.ofBool c = 1#1 ↔ c = true := by cases c <;> decide

/-- The ordered "less than" test that came out 1 says "less than". -/
theorem lt_of_cmp_olt {a b : EReal} (h : Ideal.cmp .olt a b = 1#1) : a < b := by
  unfold Ideal.cmp at h
  rw [ofBool_eq_one_iff] at h
  exact of_decide_eq_true h

/-- An extended real whose absolute value is below +∞ is a real number. -/
theorem real_of_abs_lt_top (x : EReal) (h : max x (-x) < ⊤) : ∃ r : ℝ, x = (r : EReal) := by
  induction x using EReal.rec with
  | bot =>
    rw [EReal.neg_bot, max_eq_right bot_le] at h
    exact absurd h (lt_irrefl _)
  | coe r => exact ⟨r, rfl⟩
  | top =>
    rw [max_eq_left le_top] at h
    exact absurd h (lt_irrefl _)

/-- Under the precondition every prediction is a real number. -/
theorem pred_real (x0 : SE.Idx → EReal) (x1 : SE.Idx → BitVec 32) (x2 : SE.Idx → EReal)
    (h : Cert.Pre_finite_inputs.fn (F := Ideal) x0 x1 x2 = fun _ => 1#1) (e : SE.Idx) : ∃ r : ℝ, x0 e = (r : EReal) := by
  have h0 := congrFun h ValueIdx.ix0
  dsimp only [Cert.Pre_finite_inputs.fn] at h0
  have h1 := (IntOp.andi_eq_one.1 h0).1
  have h2 := Host.reduce_andi_all _ _ _ _ _ h1 e
  have h3 : Ideal.cmp .olt (max (x0 e) (-(x0 e))) (Ideal.ofBits .f32 0x7F800000#32) = 1#1 := h2
  rw [ofBits_inf_f32] at h3
  exact real_of_abs_lt_top (x0 e) (lt_of_cmp_olt h3)

end Cert.Ghm

end
-- ==== Proof.lean ====
/-
  A gradient-harmonized classification loss computed in one fused pass, against its two-pass reference.

  For N = 4194304 × 16 elements with prediction p, integer target t and label weight l, let valid = [l > 0], let the
  bin of an element be |sigmoid p − t| · 10 cut toward zero and clipped into 0..9, and let
  bce = max p 0 − p·t + log (1 + exp (−|p|)). With cnt b the number of valid elements of bin b, T = max (number of valid
  elements) 1, n = max (number of non-empty bins) 1 and the bin weight w b = T / max (cnt b) 1, the reference computes

      (∑ over the elements of (w (bin) / n where valid, else 0) · bce) / T,

  gathering each element's bin weight from the table w. The kernel instead streams the elements once, viewed as a
  [524288, 128] matrix in 128 blocks of 4096 rows, two sweeps of 64 blocks; every block adds to its sweep's [32, 128]
  accumulator, lane by lane, the per-bin counts (rows 0..9), the number of valid entries (row 10) and the per-bin sums of
  valid·bce (rows 16..25). Afterwards the two accumulators are added, the lanes summed, and the loss formed as

      (∑ over the bins b of (w b / n) · S b) / T,   S b = ∑ over the valid elements of bin b of bce.

  At the exact values the two agree: the counts agree because a sum of valid·[bin = b] over all elements is the sum of valid
  over the elements of bin b; and regrouping the sum over the elements bin by bin moves the factor w b / n across the
  inner sum, which is distributivity over a finite sum and needs the summands to be real numbers, not infinities: the
  cross-entropy terms are real because the predictions are finite (the precondition), the weights because the counts are
  finite sums of zeros and ones and the divisors are at least 1. The enumeration of the elements by (sweep, block, row,
  lane) is the row-major bijection onto the [4194304, 16] index set.

  The modules: GhmSpec / GhmElem / GhmLoss state the two closed forms and one element's three quantities; GhmLaw proves
  the two forms equal over any finite family of elements; GhmIndex the two enumerations; KPoint, KTile what one grid
  point adds to its accumulator; KAcc the accumulator after each point and the array after the run; KTail, KTailRead the
  operations after the kernel; KValue, KBridge the kernel program's result as the bin-by-bin form; RefValue the reference
  program's result as the element-by-element form; Finite reads "every prediction is a real number" off the precondition.
  The idealization rewrote no operation, so the kernel's idealization is its own text read at the exact values.
-/
import proofs.«167816_j4818953306441_2_alg».proof.Defs
import proofs.«167816_j4818953306441_2_alg».proof.Proof.Gen.Kernel
import proofs.«167816_j4818953306441_2_alg».proof.Proof.Gen.Kernel.Frame
import proofs.«167816_j4818953306441_2_alg».proof.Proof.Gen.KernelIdeal
import proofs.«167816_j4818953306441_2_alg».proof.Proof.Gen.KernelIdeal.Frame
import proofs.«167816_j4818953306441_2_alg».proof.Proof.Gen.ReferenceIdeal
import proofs.«167816_j4818953306441_2_alg».proof.Proof.Gen.Pre_finite_inputs
import proofs.«167816_j4818953306441_2_alg».proof.Proof.RunP
import proofs.«167816_j4818953306441_2_alg».proof.Proof.ReadP
import proofs.«167816_j4818953306441_2_alg».proof.Proof.RefValue
import proofs.«167816_j4818953306441_2_alg».proof.Proof.KBridge
import proofs.«167816_j4818953306441_2_alg».proof.Proof.GhmLaw
import proofs.«167816_j4818953306441_2_alg».proof.Proof.GhmElemFacts
import proofs.«167816_j4818953306441_2_alg».proof.Proof.Finite
import Idealize.ShloMosaic.Adequacy
import Idealize.ShloMosaic.Init

noncomputable section

namespace Cert.Proof

open Idealize.ShloMosaic Idealize.SL.Sem

/-- The word-level kernel program runs and leaves its arguments unchanged. -/
theorem frame_k : Cert.frame_Kernel := fun m ρ _ => Cert.Kernel.Gen.frame m ρ

/-- So does its reading at the exact values. -/
theorem frame_ki : Cert.frame_KernelIdeal := fun m ρ _ => Cert.KernelIdeal.Gen.frame m ρ

/-- The reference program runs and leaves its arguments unchanged: its run with the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- No operation was rewritten. -/
theorem preserves : Cert.preserves_Kernel_KernelIdeal := trivial

/-- At the exact values, from memories agreeing on the arguments, the kernel program ends at the bin-by-bin form of the
    loss and the reference at the element-by-element form of the same arguments: equal, the predictions being finite. -/
theorem algebraic : Cert.algebraic_KernelIdeal_ReferenceIdeal := by
  intro m ρ m' ρ' hpre hagree
  refine ⟨fun c => Cert.KernelIdeal.KV.tailFn (F := Ideal) (Cert.KernelIdeal.KV.hist m c),
    Cert.KernelIdeal.KV.kernel_run m ρ, ?_⟩
  refine (θ_run Cert.ReferenceIdeal.defs _ _).mono (fun _ h c => ⟨(h c).1.trans ?_, (h c).2⟩)
    (Cert.ReferenceIdeal.ValueP.run (F := Ideal) m' ρ')
  show Cert.ReferenceIdeal.ValueP.res_main_v54 m' c
    = Cert.KernelIdeal.KV.tailFn (F := Ideal) (Cert.KernelIdeal.KV.hist m c)
  rw [Cert.ReferenceIdeal.ReadP.val_main_v54_eq, (hagree c).1, (hagree c).2.1, (hagree c).2.2]
  funext i
  obtain rfl : i = ValueIdx.ix0 := ValueIdx.eq_ix0 i
  rw [Cert.Ghm.Ref.ref_value, Cert.KernelIdeal.KV.kernel_value m c]
  symm
  refine Cert.Ghm.kLoss_eq_rLoss _ _ _ (fun e => Cert.Ghm.gbin_range _ _) (fun e => ?_)
  obtain ⟨r, hr⟩ := Cert.Ghm.pred_real _ _ _ (hpre c) e
  show ∃ r' : ℝ, Cert.Ghm.bce (m ((c.tc : Thread Cert.KernelIdeal.nD Cert.KernelIdeal.τ).loc Cert.KernelIdeal.main_arg0) e) _ = (r' : EReal)
  rw [hr]
  exact Cert.Ghm.bce_real r _

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
